-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4096 : Shape := ⟨2, ![4096, 4096]⟩
abbrev S4096 : Shape := ⟨1, ![4096]⟩
abbrev S1x4096 : Shape := ⟨2, ![1, 4096]⟩
abbrev S1 : Shape := ⟨1, ![1]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S4096x4096 .f32) (main_arg15 : FVec F S1x4096 .f32) (main_arg16 : FVec F S1 .f32) (main_v63 : IVec S_ 1) (main_v67 : IVec S_ 1) : IVec S_ 1 :=
  let main_v68 : IVec S_ 1 := andi main_v63 main_v67
  let main_v69 : FVec F S4096x4096 .f32 := Host.absf main_arg14
  let main_cst_26 : FVec F S_ .f32 := constant S_ .f32 0x7F800000#32
  let main_v70 : FVec F S4096x4096 .f32 := broadcastInDim S4096x4096 ![] bcast_S_S4096x4096 main_cst_26
  let main_v71 : IVec S4096x4096 1 := cmpf .olt main_v69 main_v70
  let main_c_27 : IVec S_ 1 := constantI S_ 1 1#1
  let main_v72 : IVec S_ 1 := (fun x v => Host.reduce IntOp.andi x v reducesTo_S4096x4096_S_d0_1 h_S_) main_v71 main_c_27
  let main_v73 : IVec S_ 1 := andi main_v68 main_v72
  let main_v74 : FVec F S1x4096 .f32 := Host.absf main_arg15
  let main_cst_28 : FVec F S_ .f32 := constant S_ .f32 0x7F800000#32
  let main_v75 : FVec F S1x4096 .f32 := broadcastInDim S1x4096 ![] bcast_S_S1x4096 main_cst_28
  let main_v76 : IVec S1x4096 1 := cmpf .olt main_v74 main_v75
  let main_c_29 : IVec S_ 1 := constantI S_ 1 1#1
  let main_v77 : IVec S_ 1 := (fun x v => Host.reduce IntOp.andi x v reducesTo_S1x4096_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg11 : FVec F S4096x4096 .f32) (main_arg12 : FVec F S4096x4096 .f32) (main_arg13 : FVec F S4096x4096 .f32) (main_arg14 : FVec F S4096x4096 .f32) (main_arg15 : FVec F S1x4096 .f32) (main_arg16 : FVec F S1 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096x4096 .f32 := Host.absf main_arg11
  let main_cst_20 : FVec F S_ .f32 := constant S_ .f32 0x7F800000#32
  let main_v55 : FVec F S4096x4096 .f32 := broadcastInDim S4096x4096 ![] bcast_S_S4096x4096 main_cst_20
  let main_v56 : IVec S4096x4096 1 := cmpf .olt main_v54 main_v55
  let main_c_21 : IVec S_ 1 := constantI S_ 1 1#1
  let main_v57 : IVec S_ 1 := (fun x v => Host.reduce IntOp.andi x v reducesTo_S4096x4096_S_d0_1 h_S_) main_v56 main_c_21
  let main_v58 : IVec S_ 1 := andi main_v53 main_v57
  let main_v59 : FVec F S4096x4096 .f32 := Host.absf main_arg12
  let main_cst_22 : FVec F S_ .f32 := constant S_ .f32 0x7F800000#32
  let main_v60 : FVec F S4096x4096 .f32 := broadcastInDim S4096x4096 ![] bcast_S_S4096x4096 main_cst_22
  let main_v61 : IVec S4096x4096 1 := cmpf .olt main_v59 main_v60
  let main_c_23 : IVec S_ 1 := constantI S_ 1 1#1
  let main_v62 : IVec S_ 1 := (fun x v => Host.reduce IntOp.andi x v reducesTo_S4096x4096_S_d0_1 h_S_) main_v61 main_c_23
  let main_v63 : IVec S_ 1 := andi main_v58 main_v62
  let main_v64 : FVec F S4096x4096 .f32 := Host.absf main_arg13
  let main_cst_24 : FVec F S_ .f32 := constant S_ .f32 0x7F800000#32
  let main_v65 : FVec F S4096x4096 .f32 := broadcastInDim S4096x4096 ![] bcast_S_S4096x4096 main_cst_24
  let main_v66 : IVec S4096x4096 1 := cmpf .olt main_v64 main_v65
  let main_c_25 : IVec S_ 1 := constantI S_ 1 1#1
  let main_v67 : IVec S_ 1 := (fun x v => Host.reduce IntOp.andi x v reducesTo_S4096x4096_S_d0_1 h_S_) main_v66 main_c_25
  fn_part4 (F := F) main_arg14 main_arg15 main_arg16 main_v63 main_v67

def fn_part2 {F : FTy → Type} [FloatOps F] (main_arg7 : FVec F S4096 .f32) (main_arg8 : FVec F S4096 .f32) (main_arg9 : FVec F S4096 .f32) (main_arg10 : FVec F S4096 .f32) (main_arg11 : FVec F S4096x4096 .f32) (main_arg12 : FVec F S4096x4096 .f32) (main_arg13 : FVec F S4096x4096 .f32) (main_arg14 : FVec F S4096x4096 .f32) (main_arg15 : FVec F S1x4096 .f32) (main_arg16 : FVec F S1 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_arg13 main_arg14 main_arg15 main_arg16 main_v48 main_v49 main_v50

def fn_part1 {F : FTy → Type} [FloatOps F] (main_arg4 : FVec F S4096x1024 .f32) (main_arg5 : FVec F S4096x1024 .f32) (main_arg6 : FVec F S4096x1024 .f32) (main_arg7 : FVec F S4096 .f32) (main_arg8 : FVec F S4096 .f32) (main_arg9 : FVec F S4096 .f32) (main_arg10 : FVec F S4096 .f32) (main_arg11 : FVec F S4096x4096 .f32) (main_arg12 : FVec F S4096x4096 .f32) (main_arg13 : FVec F S4096x4096 .f32) (main_arg14 : FVec F S4096x4096 .f32) (main_arg15 : FVec F S1x4096 .f32) (main_arg16 : FVec F S1 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S4096x1024 .f32) (main_arg1 : FVec F S4096x4096 .f32) (main_arg2 : FVec F S4096x4096 .f32) (main_arg3 : FVec F S4096x1024 .f32) (main_arg4 : FVec F S4096x1024 .f32) (main_arg5 : FVec F S4096x1024 .f32) (main_arg6 : FVec F S4096x1024 .f32) (main_arg7 : FVec F S4096 .f32) (main_arg8 : FVec F S4096 .f32) (main_arg9 : FVec F S4096 .f32) (main_arg10 : FVec F S4096 .f32) (main_arg11 : FVec F S4096x4096 .f32) (main_arg12 : FVec F S4096x4096 .f32) (main_arg13 : FVec F S4096x4096 .f32) (main_arg14 : FVec F S4096x4096 .f32) (main_arg15 : FVec F S1x4096 .f32) (main_arg16 : FVec F S1 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S4096x1024 : Shape := ⟨2, ![4096, 1024]⟩
abbrev S4096x4096 : Shape := ⟨2, ![4096, 4096]⟩
abbrev S4096 : Shape := ⟨1, ![4096]⟩
abbrev S1x4096 : Shape := ⟨2, ![1, 4096]⟩
abbrev S1 : Shape := ⟨1, ![1]⟩
abbrev S1x1 : Shape := ⟨2, ![1, 1]⟩
abbrev S4096x1 : Shape := ⟨2, ![4096, 1]⟩
abbrev S512x1024 : Shape := ⟨2, ![512, 1024]⟩
abbrev S512x4096 : Shape := ⟨2, ![512, 4096]⟩
abbrev S512x256 : Shape := ⟨2, ![512, 256]⟩
abbrev S256x1024 : Shape := ⟨2, ![256, 1024]⟩
abbrev S1x256 : Shape := ⟨2, ![1, 256]⟩
abbrev S256x4096 : Shape := ⟨2, ![256, 4096]⟩
abbrev S512x1 : Shape := ⟨2, ![512, 1]⟩
abbrev S512 : Shape := ⟨1, ![512]⟩

abbrev nBuf : Space → Nat
  | .hbm => 33
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S1, .f32⟩
  | .hbm, ⟨17, _⟩ => ⟨S4096x1024, .bf16⟩
  | .hbm, ⟨18, _⟩ => ⟨S4096x4096, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S4096x1024, .bf16⟩
  | .hbm, ⟨23, _⟩ => ⟨S4096x4096, .bf16⟩
  | .hbm, ⟨24, _⟩ => ⟨S4096x4096, .bf16⟩
  | .hbm, ⟨25, _⟩ => ⟨S4096x4096, .bf16⟩
  | .hbm, ⟨26, _⟩ => ⟨S4096x4096, .bf16⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S1x1, .f32⟩
  | .hbm, ⟨32, _⟩ => ⟨S4096x1, .f32⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S256x4096, .bf16⟩
  | .local _ .vmem, ⟨23, _⟩ => ⟨S256x4096, .bf16⟩
  | .local _ .vmem, ⟨24, _⟩ => ⟨S256x4096, .bf16⟩
  | .local _ .vmem, ⟨25, _⟩ => ⟨S256x4096, .bf16⟩
  | .local _ .vmem, ⟨26, _⟩ => ⟨S256x4096, .bf16⟩
  | .local _ .vmem, ⟨27, _⟩ => ⟨S256x4096, .bf16⟩
  | .local _ .vmem, ⟨28, _⟩ => ⟨S256x4096, .bf16⟩
  | .local _ .vmem, ⟨29, _⟩ => ⟨S256x4096, .bf16⟩
  | .local _ .vmem, ⟨30, _⟩ => ⟨S1x256, .f32⟩
  | .local _ .vmem, ⟨31, _⟩ => ⟨S1x256, .f32⟩
  | .local _ .vmem, ⟨32, _⟩ => ⟨S1x1, .f32⟩
  | .local _ .vmem, ⟨33, _⟩ => ⟨S512x1, .f32⟩
  | .local _ .vmem, ⟨34, _⟩ => ⟨S512x1, .f32⟩
  | .local _ .vmem, ⟨35, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg17_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem17_1 : DmaSem sig := 34

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v71 : BitVec 1 := Scalar.cmpi .eq arg1 c15_i32
  let v72 : BitVec 32 := Scalar.extui v71
  let c0_i32_44 : BitVec 32 := 0#32
  let v73 : BitVec 1 := Scalar.cmpi .ne v72 c0_i32_44
  v73

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S256x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S512x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

class Facts₀ : Prop where
  bitsLt_bf16_f32 : FTy.bits .bf16 < FTy.bits .f32
  shapeCasts_S4096_S1x4096 : S4096.ShapeCasts S1x4096
  shapeCasts_S1_S1x1 : S1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  dot_S512x1024_S256x1024_S512x256_1_1_0_0_n_n_wf : DotDims.WF S512x1024 S256x1024 S512x256 [1] [1] [0] [0] [] []
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x4096.size a
  hwx0_2 : ∀ i : grid0.Coords, EltTy.bits .f32 = 32 ∨ (Rect.block (s := S4096x4096) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x1024.size a
  hwx0_3 : ∀ i : grid0.Coords, EltTy.bits .bf16 = 32 ∨ (Rect.block (s := S4096x1024) S256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x1024.size a
  hwx0_4 : ∀ i : grid0.Coords, EltTy.bits .bf16 = 32 ∨ (Rect.block (s := S4096x1024) S256x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .bf16 = 32 ∨ (Rect.block (s := S4096x1024) S256x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .bf16 = 32 ∨ (Rect.block (s := S4096x1024) S256x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x4096.size a
  hwx0_7 : ∀ i : grid0.Coords, EltTy.bits .f32 = 32 ∨ (Rect.block (s := S1x4096) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x4096.size a
  hwx0_8 : ∀ i : grid0.Coords, EltTy.bits .f32 = 32 ∨ (Rect.block (s := S1x4096) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x4096.size a
  hwx0_9 : ∀ i : grid0.Coords, EltTy.bits .f32 = 32 ∨ (Rect.block (s := S1x4096) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x4096.size a
  hwx0_10 : ∀ i : grid0.Coords, EltTy.bits .f32 = 32 ∨ (Rect.block (s := S1x4096) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x4096.size a ≤ S4096x4096.size a
  hwx0_11 : ∀ i : grid0.Coords, EltTy.bits .bf16 = 32 ∨ (Rect.block (s := S4096x4096) S256x4096.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x4096.size a ≤ S4096x4096.size a
  hwx0_12 : ∀ i : grid0.Coords, EltTy.bits .bf16 = 32 ∨ (Rect.block (s := S4096x4096) S256x4096.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x4096.size a ≤ S4096x4096.size a
  hwx0_13 : ∀ i : grid0.Coords, EltTy.bits .bf16 = 32 ∨ (Rect.block (s := S4096x4096) S256x4096.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x4096.size a ≤ S4096x4096.size a
  hwx0_14 : ∀ i : grid0.Coords, EltTy.bits .bf16 = 32 ∨ (Rect.block (s := S4096x4096) S256x4096.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x4096.size a
  hwx0_15 : ∀ i : grid0.Coords, EltTy.bits .f32 = 32 ∨ (Rect.block (s := S1x4096) S1x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1.size a ≤ S1x1.size a
  hwx0_16 : ∀ i : grid0.Coords, EltTy.bits .f32 = 32 ∨ (Rect.block (s := S1x1) S1x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x1.size a ≤ S4096x1.size a
  hwx0_17 : ∀ i : grid0.Coords, EltTy.bits .f32 = 32 ∨ (Rect.block (s := S4096x1) S512x1.size (cc0_transform_17 i) (hinb0_17 i)).WholeWords (EltTy.packing .f32)

variable [Facts₀]

def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf
def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6) S256x4096.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v7) S256x4096.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v8) S256x4096.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v9) S256x4096.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S1x256.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v14) S1x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v15) S512x1.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev idle0 : Fin 18 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun i => !(k0_cond2 i == 1#1) | ⟨_ + 18, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096x4096 : Shape := ⟨2, ![4096, 4096]⟩
abbrev S4096 : Shape := ⟨1, ![4096]⟩
abbrev S1x4096 : Shape := ⟨2, ![1, 4096]⟩
abbrev S1 : Shape := ⟨1, ![1]⟩
abbrev S1024x4096 : Shape := ⟨2, ![1024, 4096]⟩
abbrev S_ : Shape := ⟨0, ![]⟩
abbrev S4096x1 : Shape := ⟨2, ![4096, 1]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S1, .f32⟩
  | .hbm, ⟨17, _⟩ => ⟨S1024x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S1024x4096, .f32⟩
  | .hbm, ⟨34, _⟩ => ⟨S4096x4096, .f32⟩
  | .hbm, ⟨35, _⟩ => ⟨S1x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S1024x4096, .f32⟩
  | .hbm, ⟨50, _⟩ => ⟨S4096x4096, .f32⟩
  | .hbm, ⟨51, _⟩ => ⟨S1x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S4096x4096, .f32⟩
  | .hbm, ⟨61, _⟩ => ⟨S4096x4096, .f32⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S1024x4096, .f32⟩
  | .hbm, ⟨66, _⟩ => ⟨S4096x4096, .f32⟩
  | .hbm, ⟨67, _⟩ => ⟨S1x4096, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S4096x4096, .f32⟩
  | .hbm, ⟨78, _⟩ => ⟨S4096x4096, .f32⟩
  | .hbm, ⟨79, _⟩ => ⟨S4096x1, .f32⟩
  | .hbm, ⟨80, _⟩ => ⟨S4096x1, .f32⟩
  | .hbm, ⟨81, _⟩ => ⟨S1x1, .f32⟩
  | .hbm, ⟨82, _⟩ => ⟨S4096x1, .f32⟩
  | .hbm, ⟨83, _⟩ => ⟨S4096x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_1 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_3 : Ref sig .tc := ⟨.hbm, 59, rfl⟩
abbrev main_v38 : Ref sig .tc := ⟨.hbm, 60, rfl⟩
abbrev main_v39 : Ref sig .tc := ⟨.hbm, 61, rfl⟩
abbrev main_cst_4 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  transposes_S4096x4096_S4096x4096_1_0 : S4096x4096.Transposes [1, 0] S4096x4096
  bcast_S_S4096x4096 : S_.BroadcastsInDim S4096x4096 (![] : Fin 0 → Fin S4096x4096.rank)
  transposes_S1x4096_S4096x1_1_0 : S1x4096.Transposes [1, 0] S4096x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x1024_S1024x4096_S4096x4096_1_0_0_1_n_n_wf : DotDims.WF S4096x1024 S1024x4096 S4096x4096 [1] [0] [0] [1] [] []
  dot_S4096x4096_S4096x4096_S4096x4096_1_0_0_1_n_n_wf : DotDims.WF S4096x4096 S4096x4096 S4096x4096 [1] [0] [0] [1] [] []
  dot_S4096x4096_S4096x1_S4096x1_1_0_0_1_n_n_wf : DotDims.WF S4096x4096 S4096x1 S4096x1 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x1_S4096x1_1_0_0_1_n_n : DotDims S4096x4096 S4096x1 S4096x1 where
  lhsContracting := [1]
  rhsContracting := [0]
  lhsNonContracting := [0]
  rhsNonContracting := [1]
  lhsBatch := []
  rhsBatch := []
  wf := dot_S4096x4096_S4096x1_S4096x1_1_0_0_1_n_n_wf

class Facts : Prop extends Facts₀ where

variable [Facts]
-- ==== Proof.CellStep.lean ====
/-
  One step of a gated recurrent cell followed by a one-number read-out, as a function of its arrays.

  For item `b` and hidden unit `j` each of the four gates has the pre-activation
      (Σₖ x(b,k)·Wx(j,k) + bx(j)) + Σₖ h(b,k)·Wh(j,k),
  the first sum over the input width, the second over the hidden width, added in this order. With σ the logistic
  function, the unit's new cell value is σ(f)·c(b,j) + σ(i)·tanh(g) and its new hidden value is σ(o)·tanh of that.
  The read-out of item `b` is Σⱼ hidden(b,j)·wy(j) plus one bias. Everything is taken on the extended reals, where
  each of these operations is total, so the formulas need no side condition.
-/
import Idealize.ShloMosaic.PureOps.Ideal
import Idealize.ShloMosaic.Lib.ValueIdx

open scoped BigOperators

noncomputable section

namespace Cert.CellStep

open Idealize.ShloMosaic Idealize.ShloMosaic.ValueIdx

/-- A gate's pre-activation for one item and one hidden unit: the item's input row against the unit's input weights,
    plus the unit's bias, plus the item's previous hidden row against the unit's recurrent weights. -/
def gatePre {I H : ℕ} (x : Fin I → EReal) (h : Fin H → EReal) (wx : Fin I → EReal) (b : EReal)
    (wh : Fin H → EReal) : EReal :=
  ((∑ k : Fin I, x k * wx k) + b) + ∑ k : Fin H, h k * wh k

/-- A unit's new hidden value from its four pre-activations (input, forget, output, candidate) and its previous
    cell value. -/
def hidden (pi pf po pg c : EReal) : EReal :=
  Ideal.logistic po * Ideal.tanh (Ideal.logistic pf * c + Ideal.logistic pi * Ideal.tanh pg)

/-- An array of extended reals with two axes. -/
abbrev Arr2 (a b : ℕ) : Type := (⟨2, ![a, b]⟩ : Shape).Idx → EReal
/-- An array of extended reals with one axis. -/
abbrev Arr1 (a : ℕ) : Type := (⟨1, ![a]⟩ : Shape).Idx → EReal

/-- What hidden unit `j` contributes to the read-out of item `b`: its new hidden value times its read-out weight. -/
def unitTerm (x : Arr2 4096 1024) (hid cell : Arr2 4096 4096) (wxi wxf wxo wxc : Arr2 4096 1024)
    (bi bf bo bc : Arr1 4096) (whi whf who whc : Arr2 4096 4096) (wy : Arr2 1 4096) (b j : Fin 4096) : EReal :=
  hidden
      (gatePre (fun k => x (ix2 b k)) (fun k => hid (ix2 b k)) (fun k => wxi (ix2 j k)) (bi (ix1 j)) (fun k => whi (ix2 j k)))
      (gatePre (fun k => x (ix2 b k)) (fun k => hid (ix2 b k)) (fun k => wxf (ix2 j k)) (bf (ix1 j)) (fun k => whf (ix2 j k)))
      (gatePre (fun k => x (ix2 b k)) (fun k => hid (ix2 b k)) (fun k => wxo (ix2 j k)) (bo (ix1 j)) (fun k => who (ix2 j k)))
      (gatePre (fun k => x (ix2 b k)) (fun k => hid (ix2 b k)) (fun k => wxc (ix2 j k)) (bc (ix1 j)) (fun k => whc (ix2 j k)))
      (cell (ix2 b j))
    * wy (ix2 (0 : Fin 1) j)

/-- The step's result: for every item the sum of its units' contributions, plus the read-out bias. -/
def readout (x : Arr2 4096 1024) (hid cell : Arr2 4096 4096) (wxi wxf wxo wxc : Arr2 4096 1024)
    (bi bf bo bc : Arr1 4096) (whi whf who whc : Arr2 4096 4096) (wy : Arr2 1 4096) (bias : Arr1 1) : Arr2 4096 1 :=
  fun i => (∑ j : Fin 4096, unitTerm x hid cell wxi wxf wxo wxc bi bf bo bc whi whf who whc wy ⟨(i 0).val, (i 0).isLt⟩ j)
    + bias (ix1 (0 : Fin 1))

/-- The result at item `b`, whatever the unit coordinate. -/
theorem readout_apply (x : Arr2 4096 1024) (hid cell : Arr2 4096 4096) (wxi wxf wxo wxc : Arr2 4096 1024)
    (bi bf bo bc : Arr1 4096) (whi whf who whc : Arr2 4096 4096) (wy : Arr2 1 4096) (bias : Arr1 1)
    (b : Fin 4096) (z : Fin 1) :
    readout x hid cell wxi wxf wxo wxc bi bf bo bc whi whf who whc wy bias (ix2 b z)
      = (∑ j : Fin 4096, unitTerm x hid cell wxi wxf wxo wxc bi bf bo bc whi whf who whc wy b j)
        + bias (ix1 (0 : Fin 1)) := rfl

end Cert.CellStep

end
-- ==== Proof.LibDenseRows.lean ====
/-
  A layer computed from weight rows, read at an index.

  A kernel may multiply a block of `K` item rows `[K, N]` by `Q` weight rows `[Q, N]` without transposing
  the weights: the matrix unit contracts the second axis of both operands. Into a zero accumulator, over the extended
  reals, entry `(p, q)` of the product is the plain sum `Σ n, X (p, n) * W (q, n)`; with a bias row `[1, Q]`
  laid along every row of the block added, it is that sum plus `bias (0, q)`. In particular column `q` of the
  result depends on row `q` of the weights and entry `q` of the bias only.
-/
import Idealize.ShloMosaic.Lib.ValueIdx
import Idealize.ShloMosaic.Lib.ValueLayout
import Idealize.ShloMosaic.PureOps.Ideal.Laws

noncomputable section

namespace Idealize.ShloMosaic.DenseRows

open Idealize.ShloMosaic Idealize.ShloMosaic.ValueIdx

/-- The dimension numbers of `[K, N] · [Q, N]ᵀ → [K, Q]`. -/
abbrev rowDims (K N Q : Nat)
    (wf : DotDims.WF ⟨2, ![K, N]⟩ ⟨2, ![Q, N]⟩ ⟨2, ![K, Q]⟩ [1] [1] [0] [0] [] []) :
    DotDims ⟨2, ![K, N]⟩ ⟨2, ![Q, N]⟩ ⟨2, ![K, Q]⟩ where
  lhsContracting := [1]
  rhsContracting := [1]
  lhsNonContracting := [0]
  rhsNonContracting := [0]
  lhsBatch := []
  rhsBatch := []
  wf := wf

section
variable {K N Q : Nat} (wf : DotDims.WF ⟨2, ![K, N]⟩ ⟨2, ![Q, N]⟩ ⟨2, ![K, Q]⟩ [1] [1] [0] [0] [] [])

/-- The left operand's row is the result's row. -/
theorem lhs_row (j : (⟨2, ![K, Q]⟩ : Shape).Idx) (c : (rowDims K N Q wf).contr.Idx) :
    ((rowDims K N Q wf).lhsIdx j c (0 : Fin 2)).val = (j 0).val := by
  unfold DotDims.lhsIdx
  rw [dif_neg (show ¬ (0 : Fin 2) ∈ (rowDims K N Q wf).lhsBatch from List.not_mem_nil),
    dif_pos (show (0 : Fin 2) ∈ (rowDims K N Q wf).lhsNonContracting from List.mem_singleton.mpr rfl)]
  rfl

/-- The left operand's column is the contraction position. -/
theorem lhs_col (j : (⟨2, ![K, Q]⟩ : Shape).Idx) (c : (rowDims K N Q wf).contr.Idx) :
    ((rowDims K N Q wf).lhsIdx j c (1 : Fin 2)).val = (c ⟨0, Nat.one_pos⟩).val :=
  (rowDims K N Q wf).lhsIdx_val_of_single rfl j c

/-- The right operand's row is the result's column. -/
theorem rhs_row (j : (⟨2, ![K, Q]⟩ : Shape).Idx) (c : (rowDims K N Q wf).contr.Idx) :
    ((rowDims K N Q wf).rhsIdx j c (0 : Fin 2)).val = (j 1).val := by
  unfold DotDims.rhsIdx
  rw [dif_neg (show ¬ (0 : Fin 2) ∈ (rowDims K N Q wf).rhsBatch from List.not_mem_nil),
    dif_pos (show (0 : Fin 2) ∈ (rowDims K N Q wf).rhsNonContracting from List.mem_singleton.mpr rfl)]
  rfl

/-- The right operand's column is the contraction position. -/
theorem rhs_col (j : (⟨2, ![K, Q]⟩ : Shape).Idx) (c : (rowDims K N Q wf).contr.Idx) :
    ((rowDims K N Q wf).rhsIdx j c (1 : Fin 2)).val = (c ⟨0, Nat.one_pos⟩).val :=
  (rowDims K N Q wf).rhsIdx_val_of_single rfl j c

/-- Entry `(p, q)` of the product into a zero accumulator is `Σ n, X (p, n) * W (q, n)`. -/
theorem matmul_rows_zero_apply {φ₁ φ₂ : FTy} (X : FVec Ideal ⟨2, ![K, N]⟩ φ₁) (W : FVec Ideal ⟨2, ![Q, N]⟩ φ₂)
    (p : Fin K) (q : Fin Q) :
    FloatOps.matmul (rowDims K N Q wf) none X W (constant ⟨2, ![K, Q]⟩ .f32 0x00000000#32) (ix2 p q)
      = ∑ n : Fin N, X (ix2 p n) * W (ix2 q n) := by
  rw [Ideal.matmul_constant_zero_apply, ← Equiv.sum_comp (contrEquiv1 (rowDims K N Q wf) N rfl rfl).symm]
  refine Finset.sum_congr rfl fun n _ => ?_
  have hn := contrEquiv1_symm_val (rowDims K N Q wf) N rfl rfl n
  have el : (rowDims K N Q wf).lhsIdx (ix2 p q) ((contrEquiv1 (rowDims K N Q wf) N rfl rfl).symm n) = ix2 p n :=
    funext fun a => Fin.ext (by
      match a with
      | ⟨0, _⟩ => exact lhs_row wf _ _
      | ⟨1, _⟩ => exact (lhs_col wf _ _).trans hn)
  have er : (rowDims K N Q wf).rhsIdx (ix2 p q) ((contrEquiv1 (rowDims K N Q wf) N rfl rfl).symm n) = ix2 q n :=
    funext fun a => Fin.ext (by
      match a with
      | ⟨0, _⟩ => exact rhs_row wf _ _
      | ⟨1, _⟩ => exact (rhs_col wf _ _).trans hn)
  rw [el, er]

/-- Entry `(p, q)` of `X · Wᵀ + bias`, the bias one row laid along every row. -/
theorem affine_rows_apply {φ₁ φ₂ : FTy} (X : FVec Ideal ⟨2, ![K, N]⟩ φ₁) (W : FVec Ideal ⟨2, ![Q, N]⟩ φ₂)
    (bias : FVec Ideal ⟨2, ![1, Q]⟩ .f32) (hb : (⟨2, ![1, Q]⟩ : Shape).Broadcasts ⟨2, ![K, Q]⟩) (p : Fin K) (q : Fin Q) :
    addf (matmul (rowDims K N Q wf) none X W (constant ⟨2, ![K, Q]⟩ .f32 0x00000000#32))
        (broadcastTo ⟨2, ![K, Q]⟩ bias hb) (ix2 p q)
      = (∑ n : Fin N, X (ix2 p n) * W (ix2 q n)) + bias (ix2 (0 : Fin 1) q) := by
  show FloatOps.matmul (rowDims K N Q wf) none X W (constant ⟨2, ![K, Q]⟩ .f32 0x00000000#32) (ix2 p q)
      + broadcastTo ⟨2, ![K, Q]⟩ bias hb (ix2 p q) = _
  rw [matmul_rows_zero_apply wf X W p q, broadcastTo_1b_ab_apply bias hb p q]

end

end Idealize.ShloMosaic.DenseRows

end
-- ==== Proof.LibColumn.lean ====
/-
  A column kept beside a matrix.

  Reducing an `[a, b]` array along its second axis leaves an `[a]` array. Keeping the reduced axis as a unit axis
  makes that an `[a, 1]` column, and broadcasting the column back to `[a, b]` gives every entry of row `p` the
  value the reduction found for row `p`. These are the two layout steps, each read at an index.
-/
import Idealize.ShloMosaic.Lib.ValueIdx
import Idealize.ShloMosaic.Lib.Pipeline.Value

noncomputable section

namespace Idealize.ShloMosaic.Column

open Idealize.ShloMosaic Idealize.ShloMosaic.ValueIdx

variable {α : Type}

/-- An `[a]` array cast to an `[a, 1]` column reads, at `(p, u)`, the operand at `p`, whatever the unit
    coordinate `u`: both positions are the `p`-th in row-major order. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! The host spells the same two steps, and the broadcast of a scalar, with `broadcast_in_dim`. -/

/-- A scalar broadcast to any shape reads the scalar at every index. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

/-- An `[a]` array broadcast along axis 0 into an `[a, 1]` column reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` column broadcast along both axes to `[a, b]` reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column

end
-- ==== Proof.LibRowDot.lean ====
/-
  A matrix–vector product taken a strip of rows at a time.

  To form S·u without a matrix unit, a program takes a strip of `a` rows of S (an `[a, n]` array), repeats the
  vector u — held as one row, `[1, n]` — on every row of the strip, multiplies the two entry by entry, adds each
  row of products up starting from zero, and stands the `a` sums up as an `[a, 1]` column. On the extended reals
  entry (q, 0) of that column is Σ_k strip_{q,k} · u_k: a sum over one axis is the sum over that axis's coordinates,
  the repeated row reads u_k in every row, and the layout steps move nothing.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«128934_j49254684950852_2_alg».proof.Proof.LibColumn

noncomputable section

namespace Idealize.ShloMosaic.RowDot

open Idealize.ShloMosaic Idealize.ShloMosaic.ValueIdx

/-- A strip of `a` rows times the row `w` repeated on every row, each row of products added up from zero, the sums
    stood up as a column and the column cast to its own shape once more: entry (q, z) is Σ_k x_{q,k} · w_{0,k},
    whatever the unit coordinate z. -/
theorem strip_sum {a n : ℕ} (x : FVec Ideal ⟨2, ![a, n]⟩ .f32) (w : FVec Ideal ⟨2, ![1, n]⟩ .f32)
    (hb : (⟨2, ![1, n]⟩ : Shape).Broadcasts ⟨2, ![a, n]⟩)
    (hr : (⟨2, ![a, n]⟩ : Shape).Reduces [(1 : Fin 2)] ⟨1, ![a]⟩)
    (hφ : FKind.Formats .f32) (hacc : (0x00000000#32 : BitVec FTy.f32.bits) = FKind.add.neutral .f32 hφ)
    (h1 : (⟨1, ![a]⟩ : Shape).ShapeCasts ⟨2, ![a, 1]⟩) (h2 : (⟨2, ![a, 1]⟩ : Shape).ShapeCasts ⟨2, ![a, 1]⟩)
    (q : Fin a) (z : Fin 1) :
    shapeCast ⟨2, ![a, 1]⟩ (shapeCast ⟨2, ![a, 1]⟩
        (multiReduction .add [(1 : Fin 2)] ⟨1, ![a]⟩ (mulf x (broadcastTo ⟨2, ![a, n]⟩ w hb)) 0x00000000#32 hr hφ hacc) h1) h2 (ix2 q z)
      = ∑ k : Fin n, x (ix2 q k) * w (ix2 (0 : Fin 1) k) := by
  rw [shapeCast_self, Idealize.ShloMosaic.Column.shapeCast_a_a1_apply, Ideal.multiReduction_add_single]
  show ∑ k : Fin n, mulf x (broadcastTo ⟨2, ![a, n]⟩ w hb) (hr.lift (ix1 q) k) = _
  refine Finset.sum_congr rfl fun k _ => ?_
  have e : hr.lift (ix1 q) k = ix2 q k := funext fun d => Fin.ext (by
    match d with
    | ⟨0, _⟩ => rfl
    | ⟨1, _⟩ => rfl)
  rw [e]
  show x (ix2 q k) * broadcastTo ⟨2, ![a, n]⟩ w hb (ix2 q k) = _
  rw [broadcastTo_1b_ab_apply]

end Idealize.ShloMosaic.RowDot

end
-- ==== Proof.LibUnitBroadcast.lean ====
/-
  One number spread over a matrix.

  A `[1, 1]` array holds one number. Broadcasting it to `[a, b]` gives every entry of the matrix that number:
  both axes of the operand are unit axes, so every index of the result reads the operand's only entry.
-/
import Idealize.ShloMosaic.Lib.ValueIdx
import Idealize.ShloMosaic.Lib.Pipeline.Value

noncomputable section

namespace Idealize.ShloMosaic.UnitBroadcast

open Idealize.ShloMosaic Idealize.ShloMosaic.ValueIdx

variable {α : Type}

/-- A `[1, 1]` array broadcast to `[a, b]` reads, at every `(p, q)`, the operand's one entry. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Idealize.ShloMosaic.UnitBroadcast

end
-- ==== Proof.TileStep.lean ====
/-
  What one grid point of the kernel computes, read at a row of its batch tile.

  A grid point holds 512 items and 256 hidden units. For each gate it multiplies the items' input rows by the units'
  input-weight rows (contracting the second axis of both, so no transpose is formed), adds the units' bias row to every
  item, and adds the product of the items' previous hidden rows with the units' recurrent-weight rows: entry (q, l) is
  the pre-activation of item q and unit l. The new hidden values are multiplied by the read-out row, each item's 256
  products are added up, and the column of sums is added to the column the point found. So the point adds, to what item
  q had, the contributions of its 256 units.
-/
import proofs.«128934_j49254684950852_2_alg».proof.Proof.Gen.KernelIdeal.Skeleton
import proofs.«128934_j49254684950852_2_alg».proof.Proof.CellStep
import proofs.«128934_j49254684950852_2_alg».proof.Proof.LibDenseRows
import proofs.«128934_j49254684950852_2_alg».proof.Proof.LibRowDot
import proofs.«128934_j49254684950852_2_alg».proof.Proof.LibUnitBroadcast
import Idealize.ShloMosaic.Lib.Pipeline.Value
import Idealize.ShloMosaic.PureOps.Ideal.Laws

noncomputable section

namespace Cert.KernelIdeal.TileStep

open Cert.KernelIdeal Cert.KernelIdeal.Gen Idealize.ShloMosaic Idealize.ShloMosaic.ValueIdx Cert.CellStep

/-- What a grid point leaves in the carried column, for any float values: the body's arithmetic on the point's sixteen
    input blocks and on the column `acc` it found. -/
def step {F : FTy → Type} [FloatOps F] (x0 : Vec F S512x1024 .bf16) (x1 : Vec F S512x4096 .bf16) (x2 : Vec F S512x256 .f32)
    (x3 x4 x5 x6 : Vec F S256x1024 .bf16) (x7 x8 x9 x10 : Vec F S1x256 .f32) (x11 x12 x13 x14 : Vec F S256x4096 .bf16)
    (x15 : Vec F S1x256 .f32) (acc : Vec F S512x1 .f32) : FVec F S512x1 .f32 :=
  k0_pay1 (k0_pay9 (k0_pay4 x0) (k0_pay5 x1) (k0_pay6 x0 x1 x3 x7 x11) (k0_pay7 x0 x1 x4 x8 x12) (k0_pay8 x0 x5)
    x9 x13 x6 x10 x14 x2 x15 acc)

/-- Items times input-weight rows, plus the bias row on every item, plus previous hidden rows times recurrent-weight
    rows: at item `q` and unit `l` of the tile, the gate's pre-activation. -/
theorem gate_tile (X : FVec Ideal S512x1024 .bf16) (Hd : FVec Ideal S512x4096 .bf16) (W : FVec Ideal S256x1024 .bf16)
    (bias : FVec Ideal S1x256 .f32) (Wh : FVec Ideal S256x4096 .bf16) (q : Fin 512) (l : Fin 256) :
    addf (addf (matmul dot_S512x1024_S256x1024_S512x256_1_1_0_0_n_n none X W (constant (F := Ideal) S512x256 .f32 0x00000000#32))
          (broadcastTo S512x256 bias broadcasts_S1x256_S512x256))
        (matmul dot_S512x4096_S256x4096_S512x256_1_1_0_0_n_n none Hd Wh (constant (F := Ideal) S512x256 .f32 0x00000000#32)) (ix2 q l)
      = gatePre (fun k => X (ix2 q k)) (fun k => Hd (ix2 q k)) (fun k => W (ix2 l k)) (bias (ix2 (0 : Fin 1) l)) (fun k => Wh (ix2 l k)) := by
  show addf (matmul dot_S512x1024_S256x1024_S512x256_1_1_0_0_n_n none X W (constant (F := Ideal) S512x256 .f32 0x00000000#32))
        (broadcastTo S512x256 bias broadcasts_S1x256_S512x256) (ix2 q l)
      + matmul dot_S512x4096_S256x4096_S512x256_1_1_0_0_n_n none Hd Wh (constant (F := Ideal) S512x256 .f32 0x00000000#32) (ix2 q l) = _
  rw [show addf (matmul dot_S512x1024_S256x1024_S512x256_1_1_0_0_n_n none X W (constant (F := Ideal) S512x256 .f32 0x00000000#32))
        (broadcastTo S512x256 bias broadcasts_S1x256_S512x256) (ix2 q l)
      = (∑ n : Fin 1024, X (ix2 q n) * W (ix2 l n)) + bias (ix2 (0 : Fin 1) l) from
      DenseRows.affine_rows_apply dot_S512x1024_S256x1024_S512x256_1_1_0_0_n_n.wf X W bias broadcasts_S1x256_S512x256 q l,
    show matmul dot_S512x4096_S256x4096_S512x256_1_1_0_0_n_n none Hd Wh (constant (F := Ideal) S512x256 .f32 0x00000000#32) (ix2 q l)
      = ∑ n : Fin 4096, Hd (ix2 q n) * Wh (ix2 l n) from
      DenseRows.matmul_rows_zero_apply dot_S512x4096_S256x4096_S512x256_1_1_0_0_n_n.wf Hd Wh q l]
  rfl

/-- Rows of products with the read-out row repeated on every item, each row added up from zero and stood up as a
    column: entry (q, z) is the sum over the tile's units of item `q`'s value times the unit's read-out weight. -/
theorem head_tile (A : FVec Ideal S512x256 .f32) (w : FVec Ideal S1x256 .f32) (q : Fin 512) (z : Fin 1) :
    shapeCast S512x1 (multiReduction .add [1] S512 (mulf A (broadcastTo S512x256 w broadcasts_S1x256_S512x256)) 0x00000000#32
        reduces_S512x256_S512 (.inl rfl) rfl) shapeCasts_S512_S512x1 (ix2 q z)
      = ∑ l : Fin 256, A (ix2 q l) * w (ix2 (0 : Fin 1) l) :=
  (congrFun (shapeCast_self _ shapeCasts_S512x1_S512x1).symm (ix2 q z)).trans
    (RowDot.strip_sum A w broadcasts_S1x256_S512x256 reduces_S512x256_S512 (.inl rfl) rfl shapeCasts_S512_S512x1
      shapeCasts_S512x1_S512x1 q z)

/-- The input and forget gates' pre-activations, as the body computes them from the point's blocks. -/
theorem pay6_apply (v3 : FVec Ideal S512x1024 .bf16) (v5 : FVec Ideal S512x4096 .bf16) (v7 : FVec Ideal S256x1024 .bf16)
    (v10 : FVec Ideal S1x256 .f32) (v14 : FVec Ideal S256x4096 .bf16) (q : Fin 512) (l : Fin 256) :
    k0_pay6 (F := Ideal) v3 v5 v7 v10 v14 (ix2 q l) = gatePre (fun k => v3 (ix2 q k)) (fun k => v5 (ix2 q k)) (fun k => v7 (ix2 l k)) (v10 (ix2 (0 : Fin 1) l)) (fun k => v14 (ix2 l k)) := by
  unfold k0_pay6 k0_pay4 k0_pay5
  dsimp only
  simp only [shapeCast_self]
  exact gate_tile v3 v5 v7 v10 v14 q l

theorem pay7_apply (v3 : FVec Ideal S512x1024 .bf16) (v5 : FVec Ideal S512x4096 .bf16) (v18 : FVec Ideal S256x1024 .bf16)
    (v21 : FVec Ideal S1x256 .f32) (v25 : FVec Ideal S256x4096 .bf16) (q : Fin 512) (l : Fin 256) :
    k0_pay7 (F := Ideal) v3 v5 v18 v21 v25 (ix2 q l) = gatePre (fun k => v3 (ix2 q k)) (fun k => v5 (ix2 q k)) (fun k => v18 (ix2 l k)) (v21 (ix2 (0 : Fin 1) l)) (fun k => v25 (ix2 l k)) := by
  unfold k0_pay7 k0_pay4 k0_pay5
  dsimp only
  simp only [shapeCast_self]
  exact gate_tile v3 v5 v18 v21 v25 q l

/-- The first product of the output gate. -/
theorem pay8_apply (v3 : FVec Ideal S512x1024 .bf16) (v29 : FVec Ideal S256x1024 .bf16) (q : Fin 512) (l : Fin 256) :
    k0_pay8 (F := Ideal) v3 v29 (ix2 q l) = ∑ k : Fin 1024, v3 (ix2 q k) * v29 (ix2 l k) := by
  unfold k0_pay8 k0_pay4
  dsimp only
  simp only [shapeCast_self]
  exact DenseRows.matmul_rows_zero_apply dot_S512x1024_S256x1024_S512x256_1_1_0_0_n_n.wf v3 v29 q l

/-- The column the reset stores is zero. -/
theorem pay3_apply (q : Fin 512) (z : Fin 1) : k0_pay3 (F := Ideal) (ix2 q z) = 0 := by
  unfold k0_pay3
  rw [shapeCast_self]
  exact Ideal.ofBits_zero_f32

/-- The column written out at the last step of a tile: the carried column plus the one read-out bias. -/
theorem pay2_apply (v74 : FVec Ideal S512x1 .f32) (v75 : FVec Ideal S1x1 .f32) (q : Fin 512) (z : Fin 1) :
    k0_pay2 (F := Ideal) v74 v75 (ix2 q z) = v74 (ix2 q z) + v75 (ix2 (0 : Fin 1) (0 : Fin 1)) := by
  unfold k0_pay2
  rw [shapeCast_self]
  show v74 (ix2 q z) + broadcastTo S512x1 v75 broadcasts_S1x1_S512x1 (ix2 q z) = _
  rw [UnitBroadcast.broadcastTo_11_ab_apply v75 broadcasts_S1x1_S512x1 q z]

/-- The rest of the body at item `q`: the column found, plus the tile's units' contributions. -/
theorem pay9_apply (v4 : FVec Ideal S512x1024 .bf16) (v6 : FVec Ideal S512x4096 .bf16) (v17 v28 v31 : FVec Ideal S512x256 .f32)
    (v32 : FVec Ideal S1x256 .f32) (v36 : FVec Ideal S256x4096 .bf16) (v40 : FVec Ideal S256x1024 .bf16) (v43 : FVec Ideal S1x256 .f32)
    (v47 : FVec Ideal S256x4096 .bf16) (v55 : FVec Ideal S512x256 .f32) (v61 : FVec Ideal S1x256 .f32) (v66 : FVec Ideal S512x1 .f32)
    (q : Fin 512) (z : Fin 1) :
    k0_pay9 (F := Ideal) v4 v6 v17 v28 v31 v32 v36 v40 v43 v47 v55 v61 v66 (ix2 q z)
      = v66 (ix2 q z) + ∑ l : Fin 256,
          hidden (v17 (ix2 q l)) (v28 (ix2 q l))
            ((v31 (ix2 q l) + v32 (ix2 (0 : Fin 1) l)) + ∑ k : Fin 4096, v6 (ix2 q k) * v36 (ix2 l k))
            (gatePre (fun k => v4 (ix2 q k)) (fun k => v6 (ix2 q k)) (fun k => v40 (ix2 l k)) (v43 (ix2 (0 : Fin 1) l)) (fun k => v47 (ix2 l k)))
            (v55 (ix2 q l))
          * v61 (ix2 (0 : Fin 1) l) := by
  unfold k0_pay9
  dsimp only
  simp only [shapeCast_self]
  show v66 (ix2 q z) + _ = _
  refine congrArg (fun t => v66 (ix2 q z) + t) ?_
  refine (head_tile _ v61 q z).trans ?_
  refine Finset.sum_congr rfl fun l _ => ?_
  refine congrArg (fun t => t * v61 (ix2 (0 : Fin 1) l)) ?_
  show Ideal.logistic (addf (addf v31 (broadcastTo S512x256 v32 broadcasts_S1x256_S512x256))
          (matmul dot_S512x4096_S256x4096_S512x256_1_1_0_0_n_n none v6 v36 (constant (F := Ideal) S512x256 .f32 0x00000000#32)) (ix2 q l))
      * Ideal.tanh (Ideal.logistic (v28 (ix2 q l)) * v55 (ix2 q l) + Ideal.logistic (v17 (ix2 q l))
          * Ideal.tanh (addf (addf (matmul dot_S512x1024_S256x1024_S512x256_1_1_0_0_n_n none v4 v40 (constant (F := Ideal) S512x256 .f32 0x00000000#32))
              (broadcastTo S512x256 v43 broadcasts_S1x256_S512x256))
            (matmul dot_S512x4096_S256x4096_S512x256_1_1_0_0_n_n none v6 v47 (constant (F := Ideal) S512x256 .f32 0x00000000#32)) (ix2 q l))) = _
  rw [gate_tile v4 v6 v40 v43 v47 q l]
  have ho : addf (addf v31 (broadcastTo S512x256 v32 broadcasts_S1x256_S512x256))
        (matmul dot_S512x4096_S256x4096_S512x256_1_1_0_0_n_n none v6 v36 (constant (F := Ideal) S512x256 .f32 0x00000000#32)) (ix2 q l)
      = (v31 (ix2 q l) + v32 (ix2 (0 : Fin 1) l)) + ∑ k : Fin 4096, v6 (ix2 q k) * v36 (ix2 l k) := by
    show (v31 (ix2 q l) + broadcastTo S512x256 v32 broadcasts_S1x256_S512x256 (ix2 q l))
      + matmul dot_S512x4096_S256x4096_S512x256_1_1_0_0_n_n none v6 v36 (constant (F := Ideal) S512x256 .f32 0x00000000#32) (ix2 q l) = _
    rw [broadcastTo_1b_ab_apply v32 broadcasts_S1x256_S512x256 q l,
      show matmul dot_S512x4096_S256x4096_S512x256_1_1_0_0_n_n none v6 v36 (constant (F := Ideal) S512x256 .f32 0x00000000#32) (ix2 q l)
        = ∑ n : Fin 4096, v6 (ix2 q n) * v36 (ix2 l n) from
        DenseRows.matmul_rows_zero_apply dot_S512x4096_S256x4096_S512x256_1_1_0_0_n_n.wf v6 v36 q l]
  rw [ho]
  rfl

/-- One grid point at item `q` of its tile: what the column held for `q`, plus, for each of the tile's 256 units, the
    unit's new hidden value times its read-out weight. -/
theorem step_apply (x0 : FVec Ideal S512x1024 .bf16) (x1 : FVec Ideal S512x4096 .bf16) (x2 : FVec Ideal S512x256 .f32) (x3 x4 x5 x6 : FVec Ideal S256x1024 .bf16) (x7 x8 x9 x10 : FVec Ideal S1x256 .f32) (x11 x12 x13 x14 : FVec Ideal S256x4096 .bf16) (x15 : FVec Ideal S1x256 .f32) (acc : FVec Ideal S512x1 .f32) (q : Fin 512) (z : Fin 1) :
    step (F := Ideal) x0 x1 x2 x3 x4 x5 x6 x7 x8 x9 x10 x11 x12 x13 x14 x15 acc (ix2 q z)
      = acc (ix2 q z) + ∑ l : Fin 256,
          hidden (gatePre (fun k => x0 (ix2 q k)) (fun k => x1 (ix2 q k)) (fun k => x3 (ix2 l k)) (x7 (ix2 (0 : Fin 1) l)) (fun k => x11 (ix2 l k)))
            (gatePre (fun k => x0 (ix2 q k)) (fun k => x1 (ix2 q k)) (fun k => x4 (ix2 l k)) (x8 (ix2 (0 : Fin 1) l)) (fun k => x12 (ix2 l k)))
            (gatePre (fun k => x0 (ix2 q k)) (fun k => x1 (ix2 q k)) (fun k => x5 (ix2 l k)) (x9 (ix2 (0 : Fin 1) l)) (fun k => x13 (ix2 l k)))
            (gatePre (fun k => x0 (ix2 q k)) (fun k => x1 (ix2 q k)) (fun k => x6 (ix2 l k)) (x10 (ix2 (0 : Fin 1) l)) (fun k => x14 (ix2 l k)))
            (x2 (ix2 q l))
          * x15 (ix2 (0 : Fin 1) l) := by
  unfold step k0_pay1
  rw [shapeCast_self, pay9_apply]
  refine congrArg (fun t => acc (ix2 q z) + t) ?_
  refine Finset.sum_congr rfl fun l _ => ?_
  rw [pay6_apply, pay7_apply, pay8_apply]
  unfold k0_pay4 k0_pay5
  simp only [shapeCast_self]
  rfl

end Cert.KernelIdeal.TileStep

end
-- ==== Proof.CasePieces.lean ====
/-
  What each control case of the body leaves behind, as the body's arithmetic on the blocks.

  The body has three cases. At the first hidden tile of a batch tile it stores a column of zeros into its carried
  column, reads it back and adds the tile's column of sums; at the tiles in between it adds the tile's column to what
  the column held; at the last hidden tile it does the same and then writes the column plus the read-out bias to the
  output block. In every case the stores cover their buffer whole, so what a buffer holds afterwards is the value of
  the last store, and a load after a store reads what was stored.
-/
import proofs.«128934_j49254684950852_2_alg».proof.Proof.Gen.KernelIdeal.Frame
import proofs.«128934_j49254684950852_2_alg».proof.Proof.TileStep
import Idealize.ShloMosaic.Lib.Pipeline.Value
import Idealize.ShloMosaic.Lib.Tactic

set_option maxRecDepth 16384

noncomputable section

namespace Cert.KernelIdeal.CasePieces

open Cert.KernelIdeal Cert.KernelIdeal.Gen Cert.KernelIdeal.TileStep
open Idealize.ShloMosaic Idealize.ShloMosaic.TcCoe Idealize.ShloMosaic.Tactic Idealize.SL Idealize.SL.Sem

variable {F : FTy → Type} [FloatOps F]

theorem hz : (![0, 0] : Fin 2 → Nat) = fun _ => 0 := funext fun a => by fin_cases a <;> rfl

/-- A middle hidden tile: the carried column ends at the step of the point's blocks over what it held. -/
theorem carried_B (c : Dev nD) (i : grid0.Coords) (arg2 : Memref sig .tc .vmem S512x1024 .bf16) (harg2 : arg2.IsWhole) (arg3 : Memref sig .tc .vmem S512x4096 .bf16) (harg3 : arg3.IsWhole) (arg4 : Memref sig .tc .vmem S512x256 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x4096 .bf16) (harg15 : arg15.IsWhole) (arg16 : Memref sig .tc .vmem S256x4096 .bf16) (harg16 : arg16.IsWhole) (arg17 : Memref sig .tc .vmem S1x256 .f32) (harg17 : arg17.IsWhole) (arg18 : Memref sig .tc .vmem S1x1 .f32) (harg18 : arg18.IsWhole) (arg19 : Memref sig .tc .vmem S512x1 .f32) (harg19 : arg19.IsWhole) (arg20 : Memref sig .tc .vmem S512x1 .f32) (harg20 : arg20.IsWhole) (hc0 : ¬cond0_0 i) (hc1 : ¬cond0_1 i) (x0 : Vec F S512x1024 .bf16) (x1 : Vec F S512x4096 .bf16) (x2 : Vec F S512x256 .f32) (x3 : Vec F S256x1024 .bf16) (x4 : Vec F S256x1024 .bf16) (x5 : Vec F S256x1024 .bf16) (x6 : Vec F S256x1024 .bf16) (x7 : Vec F S1x256 .f32) (x8 : Vec F S1x256 .f32) (x9 : Vec F S1x256 .f32) (x10 : Vec F S1x256 .f32) (x11 : Vec F S256x4096 .bf16) (x12 : Vec F S256x4096 .bf16) (x13 : Vec F S256x4096 .bf16) (x14 : Vec F S256x4096 .bf16) (x15 : Vec F S1x256 .f32) (x16 : Vec F S1x1 .f32) (xs0 : Vec F S512x1 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0 = step x0 x1 x2 x3 x4 x5 x6 x7 x8 x9 x10 x11 x12 x13 x14 x15 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x1024) hz, View.ld_unit_zero (S := S512x4096) hz, View.ld_unit_zero (S := S512x256) hz, View.ld_unit_zero (S := S256x1024) hz, View.ld_unit_zero (S := S1x256) hz, View.ld_unit_zero (S := S256x4096) hz, View.ld_unit_zero (S := S512x1) hz, View.ld_unit_zero (S := S1x1) hz]
  rfl

/-- The last hidden tile: the carried column ends at the same step. -/
theorem carried_C (c : Dev nD) (i : grid0.Coords) (arg2 : Memref sig .tc .vmem S512x1024 .bf16) (harg2 : arg2.IsWhole) (arg3 : Memref sig .tc .vmem S512x4096 .bf16) (harg3 : arg3.IsWhole) (arg4 : Memref sig .tc .vmem S512x256 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x4096 .bf16) (harg15 : arg15.IsWhole) (arg16 : Memref sig .tc .vmem S256x4096 .bf16) (harg16 : arg16.IsWhole) (arg17 : Memref sig .tc .vmem S1x256 .f32) (harg17 : arg17.IsWhole) (arg18 : Memref sig .tc .vmem S1x1 .f32) (harg18 : arg18.IsWhole) (arg19 : Memref sig .tc .vmem S512x1 .f32) (harg19 : arg19.IsWhole) (arg20 : Memref sig .tc .vmem S512x1 .f32) (harg20 : arg20.IsWhole) (hc0 : ¬cond0_0 i) (hc1 : cond0_1 i) (x0 : Vec F S512x1024 .bf16) (x1 : Vec F S512x4096 .bf16) (x2 : Vec F S512x256 .f32) (x3 : Vec F S256x1024 .bf16) (x4 : Vec F S256x1024 .bf16) (x5 : Vec F S256x1024 .bf16) (x6 : Vec F S256x1024 .bf16) (x7 : Vec F S1x256 .f32) (x8 : Vec F S1x256 .f32) (x9 : Vec F S1x256 .f32) (x10 : Vec F S1x256 .f32) (x11 : Vec F S256x4096 .bf16) (x12 : Vec F S256x4096 .bf16) (x13 : Vec F S256x4096 .bf16) (x14 : Vec F S256x4096 .bf16) (x15 : Vec F S1x256 .f32) (x16 : Vec F S1x1 .f32) (xs0 : Vec F S512x1 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0 = step x0 x1 x2 x3 x4 x5 x6 x7 x8 x9 x10 x11 x12 x13 x14 x15 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x1024) hz, View.ld_unit_zero (S := S512x4096) hz, View.ld_unit_zero (S := S512x256) hz, View.ld_unit_zero (S := S256x1024) hz, View.ld_unit_zero (S := S1x256) hz, View.ld_unit_zero (S := S256x4096) hz, View.ld_unit_zero (S := S512x1) hz, View.ld_unit_zero (S := S1x1) hz]
  rfl

/-- The first hidden tile: the carried column ends at the step over the column of zeros just stored. -/
theorem carried_A (c : Dev nD) (i : grid0.Coords) (arg2 : Memref sig .tc .vmem S512x1024 .bf16) (harg2 : arg2.IsWhole) (arg3 : Memref sig .tc .vmem S512x4096 .bf16) (harg3 : arg3.IsWhole) (arg4 : Memref sig .tc .vmem S512x256 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x4096 .bf16) (harg15 : arg15.IsWhole) (arg16 : Memref sig .tc .vmem S256x4096 .bf16) (harg16 : arg16.IsWhole) (arg17 : Memref sig .tc .vmem S1x256 .f32) (harg17 : arg17.IsWhole) (arg18 : Memref sig .tc .vmem S1x1 .f32) (harg18 : arg18.IsWhole) (arg19 : Memref sig .tc .vmem S512x1 .f32) (harg19 : arg19.IsWhole) (arg20 : Memref sig .tc .vmem S512x1 .f32) (harg20 : arg20.IsWhole) (hc0 : cond0_0 i) (hc1 : ¬cond0_1 i) (x0 : Vec F S512x1024 .bf16) (x1 : Vec F S512x4096 .bf16) (x2 : Vec F S512x256 .f32) (x3 : Vec F S256x1024 .bf16) (x4 : Vec F S256x1024 .bf16) (x5 : Vec F S256x1024 .bf16) (x6 : Vec F S256x1024 .bf16) (x7 : Vec F S1x256 .f32) (x8 : Vec F S1x256 .f32) (x9 : Vec F S1x256 .f32) (x10 : Vec F S1x256 .f32) (x11 : Vec F S256x4096 .bf16) (x12 : Vec F S256x4096 .bf16) (x13 : Vec F S256x4096 .bf16) (x14 : Vec F S256x4096 .bf16) (x15 : Vec F S1x256 .f32) (x16 : Vec F S1x1 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 = step x0 x1 x2 x3 x4 x5 x6 x7 x8 x9 x10 x11 x12 x13 x14 x15 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x1024) hz, View.ld_unit_zero (S := S512x4096) hz, View.ld_unit_zero (S := S512x256) hz, View.ld_unit_zero (S := S256x1024) hz, View.ld_unit_zero (S := S1x256) hz, View.ld_unit_zero (S := S256x4096) hz, View.ld_unit_zero (S := S512x1) hz, View.ld_unit_zero (S := S1x1) hz]
  rfl

/-- The last hidden tile writes out the new carried column plus the bias block. -/
theorem written_C (c : Dev nD) (i : grid0.Coords) (arg2 : Memref sig .tc .vmem S512x1024 .bf16) (harg2 : arg2.IsWhole) (arg3 : Memref sig .tc .vmem S512x4096 .bf16) (harg3 : arg3.IsWhole) (arg4 : Memref sig .tc .vmem S512x256 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x4096 .bf16) (harg15 : arg15.IsWhole) (arg16 : Memref sig .tc .vmem S256x4096 .bf16) (harg16 : arg16.IsWhole) (arg17 : Memref sig .tc .vmem S1x256 .f32) (harg17 : arg17.IsWhole) (arg18 : Memref sig .tc .vmem S1x1 .f32) (harg18 : arg18.IsWhole) (arg19 : Memref sig .tc .vmem S512x1 .f32) (harg19 : arg19.IsWhole) (arg20 : Memref sig .tc .vmem S512x1 .f32) (harg20 : arg20.IsWhole) (hc0 : ¬cond0_0 i) (hc1 : cond0_1 i) (x0 : Vec F S512x1024 .bf16) (x1 : Vec F S512x4096 .bf16) (x2 : Vec F S512x256 .f32) (x3 : Vec F S256x1024 .bf16) (x4 : Vec F S256x1024 .bf16) (x5 : Vec F S256x1024 .bf16) (x6 : Vec F S256x1024 .bf16) (x7 : Vec F S1x256 .f32) (x8 : Vec F S1x256 .f32) (x9 : Vec F S1x256 .f32) (x10 : Vec F S1x256 .f32) (x11 : Vec F S256x4096 .bf16) (x12 : Vec F S256x4096 .bf16) (x13 : Vec F S256x4096 .bf16) (x14 : Vec F S256x4096 .bf16) (x15 : Vec F S1x256 .f32) (x16 : Vec F S1x1 .f32) (xs0 : Vec F S512x1 .f32) :
    out0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0 = k0_pay2 (step x0 x1 x2 x3 x4 x5 x6 x7 x8 x9 x10 x11 x12 x13 x14 x15 xs0) x16 := by
  unfold out0_C_17
  rw [View.read_writes_eq_canon _ _ _ (cover0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0)]
  unfold kernelRun0_C
  dsimp only
  sl_unfold_words
  rw [View.canon_unit_zero hz, View.readCov_unit_zero (S := S512x1) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x1024) hz, View.ld_unit_zero (S := S512x4096) hz, View.ld_unit_zero (S := S512x256) hz, View.ld_unit_zero (S := S256x1024) hz, View.ld_unit_zero (S := S1x256) hz, View.ld_unit_zero (S := S256x4096) hz, View.ld_unit_zero (S := S512x1) hz, View.ld_unit_zero (S := S1x1) hz]
  rfl

end Cert.KernelIdeal.CasePieces

end
-- ==== Proof.Blocks.lean ====
/-
  The blocks a grid point works on, read at an index of the argument arrays.

  Point `t` of the 8 × 16 grid handles batch tile `t / 16` and hidden tile `t % 16`: the input rows and the previous hidden
  rows of items 512·(t/16) … 512·(t/16) + 511, and the weight rows, bias entries, previous cell values and read-out
  weights of units 256·(t%16) … 256·(t%16) + 255. The arrays the windows read are the arguments themselves, or copies
  a host operation made first: a change of float format, which on the extended reals changes nothing, or a vector laid
  out as one row.
-/
import proofs.«128934_j49254684950852_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Item `q` of the batch tile of point `t`, as an item of the whole batch. -/
def item (t : Fin cfg0.N) (q : Fin 512) : Fin 4096 :=
  ⟨512 * (t.val / 16) + q.val, by have h := t.isLt; have hN : cfg0.N = 128 := N_0; have := q.isLt; omega⟩

/-- Unit `l` of the hidden tile of point `t`, as a unit of the whole layer. -/
def unit (t : Fin cfg0.N) (l : Fin 256) : Fin 4096 :=
  ⟨256 * (t.val % 16) + l.val, by have := l.isLt; omega⟩

/-! ## The index maps, decided over the grid -/

theorem idx0 : ∀ t : Fin cfg0.N, win0_0.index t (0 : Fin 2) = t.val / 16 ∧ win0_0.index t (1 : Fin 2) = 0 :=
  (by decide +kernel : ∀ t : Fin grid0.N, _)
theorem idx1 : ∀ t : Fin cfg0.N, win0_1.index t (0 : Fin 2) = t.val / 16 ∧ win0_1.index t (1 : Fin 2) = 0 :=
  (by decide +kernel : ∀ t : Fin grid0.N, _)
theorem idx2 : ∀ t : Fin cfg0.N, win0_2.index t (0 : Fin 2) = t.val / 16 ∧ win0_2.index t (1 : Fin 2) = t.val % 16 :=
  (by decide +kernel : ∀ t : Fin grid0.N, _)
theorem idx3 : ∀ t : Fin cfg0.N, win0_3.index t (0 : Fin 2) = t.val % 16 ∧ win0_3.index t (1 : Fin 2) = 0 :=
  (by decide +kernel : ∀ t : Fin grid0.N, _)
theorem idx4 : ∀ t : Fin cfg0.N, win0_4.index t (0 : Fin 2) = t.val % 16 ∧ win0_4.index t (1 : Fin 2) = 0 :=
  (by decide +kernel : ∀ t : Fin grid0.N, _)
theorem idx5 : ∀ t : Fin cfg0.N, win0_5.index t (0 : Fin 2) = t.val % 16 ∧ win0_5.index t (1 : Fin 2) = 0 :=
  (by decide +kernel : ∀ t : Fin grid0.N, _)
theorem idx6 : ∀ t : Fin cfg0.N, win0_6.index t (0 : Fin 2) = t.val % 16 ∧ win0_6.index t (1 : Fin 2) = 0 :=
  (by decide +kernel : ∀ t : Fin grid0.N, _)
theorem idx7 : ∀ t : Fin cfg0.N, win0_7.index t (0 : Fin 2) = 0 ∧ win0_7.index t (1 : Fin 2) = t.val % 16 :=
  (by decide +kernel : ∀ t : Fin grid0.N, _)
theorem idx8 : ∀ t : Fin cfg0.N, win0_8.index t (0 : Fin 2) = 0 ∧ win0_8.index t (1 : Fin 2) = t.val % 16 :=
  (by decide +kernel : ∀ t : Fin grid0.N, _)
theorem idx9 : ∀ t : Fin cfg0.N, win0_9.index t (0 : Fin 2) = 0 ∧ win0_9.index t (1 : Fin 2) = t.val % 16 :=
  (by decide +kernel : ∀ t : Fin grid0.N, _)
theorem idx10 : ∀ t : Fin cfg0.N, win0_10.index t (0 : Fin 2) = 0 ∧ win0_10.index t (1 : Fin 2) = t.val % 16 :=
  (by decide +kernel : ∀ t : Fin grid0.N, _)
theorem idx11 : ∀ t : Fin cfg0.N, win0_11.index t (0 : Fin 2) = t.val % 16 ∧ win0_11.index t (1 : Fin 2) = 0 :=
  (by decide +kernel : ∀ t : Fin grid0.N, _)
theorem idx12 : ∀ t : Fin cfg0.N, win0_12.index t (0 : Fin 2) = t.val % 16 ∧ win0_12.index t (1 : Fin 2) = 0 :=
  (by decide +kernel : ∀ t : Fin grid0.N, _)
theorem idx13 : ∀ t : Fin cfg0.N, win0_13.index t (0 : Fin 2) = t.val % 16 ∧ win0_13.index t (1 : Fin 2) = 0 :=
  (by decide +kernel : ∀ t : Fin grid0.N, _)
theorem idx14 : ∀ t : Fin cfg0.N, win0_14.index t (0 : Fin 2) = t.val % 16 ∧ win0_14.index t (1 : Fin 2) = 0 :=
  (by decide +kernel : ∀ t : Fin grid0.N, _)
theorem idx15 : ∀ t : Fin cfg0.N, win0_15.index t (0 : Fin 2) = 0 ∧ win0_15.index t (1 : Fin 2) = t.val % 16 :=
  (by decide +kernel : ∀ t : Fin grid0.N, _)
theorem idx16 : ∀ t : Fin cfg0.N, win0_16.index t (0 : Fin 2) = 0 ∧ win0_16.index t (1 : Fin 2) = 0 :=
  (by decide +kernel : ∀ t : Fin grid0.N, _)
theorem idx17 : ∀ t : Fin cfg0.N, win0_17.index t (0 : Fin 2) = t.val / 16 ∧ win0_17.index t (1 : Fin 2) = 0 :=
  (by decide +kernel : ∀ t : Fin grid0.N, _)

/-! ## What the region finds in the arrays the host wrote -/

theorem V_main_v0 (c : Dev nD) : (V m c main_v0 : S4096x1024.Idx → EReal) = m ((c : Thread nD τ).loc main_arg0) := by
  dsimp only [V, hostOps0]; after_results; rfl
theorem V_main_v1 (c : Dev nD) : (V m c main_v1 : S4096x4096.Idx → EReal) = m ((c : Thread nD τ).loc main_arg1) := by
  dsimp only [V, hostOps0]; after_results; rfl
theorem V_main_v2 (c : Dev nD) : (V m c main_v2 : S4096x1024.Idx → EReal) = m ((c : Thread nD τ).loc main_arg3) := by
  dsimp only [V, hostOps0]; after_results; rfl
theorem V_main_v3 (c : Dev nD) : (V m c main_v3 : S4096x1024.Idx → EReal) = m ((c : Thread nD τ).loc main_arg4) := by
  dsimp only [V, hostOps0]; after_results; rfl
theorem V_main_v4 (c : Dev nD) : (V m c main_v4 : S4096x1024.Idx → EReal) = m ((c : Thread nD τ).loc main_arg5) := by
  dsimp only [V, hostOps0]; after_results; rfl
theorem V_main_v5 (c : Dev nD) : (V m c main_v5 : S4096x1024.Idx → EReal) = m ((c : Thread nD τ).loc main_arg6) := by
  dsimp only [V, hostOps0]; after_results; rfl
theorem V_main_v10 (c : Dev nD) : (V m c main_v10 : S1x4096.Idx → EReal) = shapeCast S1x4096 (m ((c : Thread nD τ).loc main_arg7)) shapeCasts_S4096_S1x4096 := by
  dsimp only [V, hostOps0]; after_results; rfl
theorem V_main_v11 (c : Dev nD) : (V m c main_v11 : S1x4096.Idx → EReal) = shapeCast S1x4096 (m ((c : Thread nD τ).loc main_arg8)) shapeCasts_S4096_S1x4096 := by
  dsimp only [V, hostOps0]; after_results; rfl
theorem V_main_v12 (c : Dev nD) : (V m c main_v12 : S1x4096.Idx → EReal) = shapeCast S1x4096 (m ((c : Thread nD τ).loc main_arg9)) shapeCasts_S4096_S1x4096 := by
  dsimp only [V, hostOps0]; after_results; rfl
theorem V_main_v13 (c : Dev nD) : (V m c main_v13 : S1x4096.Idx → EReal) = shapeCast S1x4096 (m ((c : Thread nD τ).loc main_arg10)) shapeCasts_S4096_S1x4096 := by
  dsimp only [V, hostOps0]; after_results; rfl
theorem V_main_v6 (c : Dev nD) : (V m c main_v6 : S4096x4096.Idx → EReal) = m ((c : Thread nD τ).loc main_arg11) := by
  dsimp only [V, hostOps0]; after_results; rfl
theorem V_main_v7 (c : Dev nD) : (V m c main_v7 : S4096x4096.Idx → EReal) = m ((c : Thread nD τ).loc main_arg12) := by
  dsimp only [V, hostOps0]; after_results; rfl
theorem V_main_v8 (c : Dev nD) : (V m c main_v8 : S4096x4096.Idx → EReal) = m ((c : Thread nD τ).loc main_arg13) := by
  dsimp only [V, hostOps0]; after_results; rfl
theorem V_main_v9 (c : Dev nD) : (V m c main_v9 : S4096x4096.Idx → EReal) = m ((c : Thread nD τ).loc main_arg14) := by
  dsimp only [V, hostOps0]; after_results; rfl
theorem V_main_v14 (c : Dev nD) : (V m c main_v14 : S1x1.Idx → EReal) = shapeCast S1x1 (m ((c : Thread nD τ).loc main_arg16)) shapeCasts_S1_S1x1 := by
  dsimp only [V, hostOps0]; after_results; rfl

/-! ## Each window's block at a point, read at an index -/

theorem blk0 (c : Dev nD) (t : Fin cfg0.N) (q : Fin 512) (k : Fin 1024) :
    (iblk m c 0 t : Vec Ideal S512x1024 .bf16) (ix2 q k) = m ((c : Thread nD τ).loc main_arg0) (ix2 (item t q) k) := by
  obtain ⟨e0, e1⟩ := idx0 t
  show ((cfg0.win 0).blk t).view.read (Elt Ideal) (V m c main_v0) (ix2 q k) = _
  rw [View.read_apply, V_main_v0 m c]
  have e : ((cfg0.win 0).blk t).view.emb (ix2 q k) = (ix2 (item t q) k : S4096x1024.Idx) := by
    funext a; apply Fin.ext
    match a with
    | ⟨0, _⟩ => show win0_0.index t (0 : Fin 2) * 512 + 1 * q.val = 512 * (t.val / 16) + q.val; rw [e0]; omega
    | ⟨1, _⟩ => show win0_0.index t (1 : Fin 2) * 1024 + 1 * k.val = k.val; rw [e1]; omega
  rw [e]
  rfl

theorem blk1 (c : Dev nD) (t : Fin cfg0.N) (q : Fin 512) (k : Fin 4096) :
    (iblk m c 1 t : Vec Ideal S512x4096 .bf16) (ix2 q k) = m ((c : Thread nD τ).loc main_arg1) (ix2 (item t q) k) := by
  obtain ⟨e0, e1⟩ := idx1 t
  show ((cfg0.win 1).blk t).view.read (Elt Ideal) (V m c main_v1) (ix2 q k) = _
  rw [View.read_apply, V_main_v1 m c]
  have e : ((cfg0.win 1).blk t).view.emb (ix2 q k) = (ix2 (item t q) k : S4096x4096.Idx) := by
    funext a; apply Fin.ext
    match a with
    | ⟨0, _⟩ => show win0_1.index t (0 : Fin 2) * 512 + 1 * q.val = 512 * (t.val / 16) + q.val; rw [e0]; omega
    | ⟨1, _⟩ => show win0_1.index t (1 : Fin 2) * 4096 + 1 * k.val = k.val; rw [e1]; omega
  rw [e]
  rfl

theorem blk2 (c : Dev nD) (t : Fin cfg0.N) (q : Fin 512) (l : Fin 256) :
    (iblk m c 2 t : Vec Ideal S512x256 .f32) (ix2 q l) = m ((c : Thread nD τ).loc main_arg2) (ix2 (item t q) (unit t l)) := by
  obtain ⟨e0, e1⟩ := idx2 t
  show ((cfg0.win 2).blk t).view.read (Elt Ideal) (V m c main_arg2) (ix2 q l) = _
  rw [View.read_apply, V_main_arg2 m c]
  have e : ((cfg0.win 2).blk t).view.emb (ix2 q l) = (ix2 (item t q) (unit t l) : S4096x4096.Idx) := by
    funext a; apply Fin.ext
    match a with
    | ⟨0, _⟩ => show win0_2.index t (0 : Fin 2) * 512 + 1 * q.val = 512 * (t.val / 16) + q.val; rw [e0]; omega
    | ⟨1, _⟩ => show win0_2.index t (1 : Fin 2) * 256 + 1 * l.val = 256 * (t.val % 16) + l.val; rw [e1]; omega
  rw [e]
  rfl

theorem blk3 (c : Dev nD) (t : Fin cfg0.N) (q : Fin 256) (k : Fin 1024) :
    (iblk m c 3 t : Vec Ideal S256x1024 .bf16) (ix2 q k) = m ((c : Thread nD τ).loc main_arg3) (ix2 (unit t q) k) := by
  obtain ⟨e0, e1⟩ := idx3 t
  show ((cfg0.win 3).blk t).view.read (Elt Ideal) (V m c main_v2) (ix2 q k) = _
  rw [View.read_apply, V_main_v2 m c]
  have e : ((cfg0.win 3).blk t).view.emb (ix2 q k) = (ix2 (unit t q) k : S4096x1024.Idx) := by
    funext a; apply Fin.ext
    match a with
    | ⟨0, _⟩ => show win0_3.index t (0 : Fin 2) * 256 + 1 * q.val = 256 * (t.val % 16) + q.val; rw [e0]; omega
    | ⟨1, _⟩ => show win0_3.index t (1 : Fin 2) * 1024 + 1 * k.val = k.val; rw [e1]; omega
  rw [e]
  rfl

theorem blk4 (c : Dev nD) (t : Fin cfg0.N) (q : Fin 256) (k : Fin 1024) :
    (iblk m c 4 t : Vec Ideal S256x1024 .bf16) (ix2 q k) = m ((c : Thread nD τ).loc main_arg4) (ix2 (unit t q) k) := by
  obtain ⟨e0, e1⟩ := idx4 t
  show ((cfg0.win 4).blk t).view.read (Elt Ideal) (V m c main_v3) (ix2 q k) = _
  rw [View.read_apply, V_main_v3 m c]
  have e : ((cfg0.win 4).blk t).view.emb (ix2 q k) = (ix2 (unit t q) k : S4096x1024.Idx) := by
    funext a; apply Fin.ext
    match a with
    | ⟨0, _⟩ => show win0_4.index t (0 : Fin 2) * 256 + 1 * q.val = 256 * (t.val % 16) + q.val; rw [e0]; omega
    | ⟨1, _⟩ => show win0_4.index t (1 : Fin 2) * 1024 + 1 * k.val = k.val; rw [e1]; omega
  rw [e]
  rfl

theorem blk5 (c : Dev nD) (t : Fin cfg0.N) (q : Fin 256) (k : Fin 1024) :
    (iblk m c 5 t : Vec Ideal S256x1024 .bf16) (ix2 q k) = m ((c : Thread nD τ).loc main_arg5) (ix2 (unit t q) k) := by
  obtain ⟨e0, e1⟩ := idx5 t
  show ((cfg0.win 5).blk t).view.read (Elt Ideal) (V m c main_v4) (ix2 q k) = _
  rw [View.read_apply, V_main_v4 m c]
  have e : ((cfg0.win 5).blk t).view.emb (ix2 q k) = (ix2 (unit t q) k : S4096x1024.Idx) := by
    funext a; apply Fin.ext
    match a with
    | ⟨0, _⟩ => show win0_5.index t (0 : Fin 2) * 256 + 1 * q.val = 256 * (t.val % 16) + q.val; rw [e0]; omega
    | ⟨1, _⟩ => show win0_5.index t (1 : Fin 2) * 1024 + 1 * k.val = k.val; rw [e1]; omega
  rw [e]
  rfl

theorem blk6 (c : Dev nD) (t : Fin cfg0.N) (q : Fin 256) (k : Fin 1024) :
    (iblk m c 6 t : Vec Ideal S256x1024 .bf16) (ix2 q k) = m ((c : Thread nD τ).loc main_arg6) (ix2 (unit t q) k) := by
  obtain ⟨e0, e1⟩ := idx6 t
  show ((cfg0.win 6).blk t).view.read (Elt Ideal) (V m c main_v5) (ix2 q k) = _
  rw [View.read_apply, V_main_v5 m c]
  have e : ((cfg0.win 6).blk t).view.emb (ix2 q k) = (ix2 (unit t q) k : S4096x1024.Idx) := by
    funext a; apply Fin.ext
    match a with
    | ⟨0, _⟩ => show win0_6.index t (0 : Fin 2) * 256 + 1 * q.val = 256 * (t.val % 16) + q.val; rw [e0]; omega
    | ⟨1, _⟩ => show win0_6.index t (1 : Fin 2) * 1024 + 1 * k.val = k.val; rw [e1]; omega
  rw [e]
  rfl

theorem blk7 (c : Dev nD) (t : Fin cfg0.N) (l : Fin 256) :
    (iblk m c 7 t : Vec Ideal S1x256 .f32) (ix2 (0 : Fin 1) l) = m ((c : Thread nD τ).loc main_arg7) (ix1 (unit t l)) := by
  obtain ⟨e0, e1⟩ := idx7 t
  show ((cfg0.win 7).blk t).view.read (Elt Ideal) (V m c main_v10) (ix2 (0 : Fin 1) l) = _
  rw [View.read_apply, V_main_v10 m c]
  have e : ((cfg0.win 7).blk t).view.emb (ix2 (0 : Fin 1) l) = (ix2 (0 : Fin 1) (unit t l) : S1x4096.Idx) := by
    funext a; apply Fin.ext
    match a with
    | ⟨0, _⟩ => show win0_7.index t (0 : Fin 2) * 1 + 1 * 0 = 0; rw [e0]
    | ⟨1, _⟩ => show win0_7.index t (1 : Fin 2) * 256 + 1 * l.val = 256 * (t.val % 16) + l.val; rw [e1]; omega
  rw [e]
  exact shapeCast_a_1a_apply _ shapeCasts_S4096_S1x4096 (0 : Fin 1) (unit t l)

theorem blk8 (c : Dev nD) (t : Fin cfg0.N) (l : Fin 256) :
    (iblk m c 8 t : Vec Ideal S1x256 .f32) (ix2 (0 : Fin 1) l) = m ((c : Thread nD τ).loc main_arg8) (ix1 (unit t l)) := by
  obtain ⟨e0, e1⟩ := idx8 t
  show ((cfg0.win 8).blk t).view.read (Elt Ideal) (V m c main_v11) (ix2 (0 : Fin 1) l) = _
  rw [View.read_apply, V_main_v11 m c]
  have e : ((cfg0.win 8).blk t).view.emb (ix2 (0 : Fin 1) l) = (ix2 (0 : Fin 1) (unit t l) : S1x4096.Idx) := by
    funext a; apply Fin.ext
    match a with
    | ⟨0, _⟩ => show win0_8.index t (0 : Fin 2) * 1 + 1 * 0 = 0; rw [e0]
    | ⟨1, _⟩ => show win0_8.index t (1 : Fin 2) * 256 + 1 * l.val = 256 * (t.val % 16) + l.val; rw [e1]; omega
  rw [e]
  exact shapeCast_a_1a_apply _ shapeCasts_S4096_S1x4096 (0 : Fin 1) (unit t l)

theorem blk9 (c : Dev nD) (t : Fin cfg0.N) (l : Fin 256) :
    (iblk m c 9 t : Vec Ideal S1x256 .f32) (ix2 (0 : Fin 1) l) = m ((c : Thread nD τ).loc main_arg9) (ix1 (unit t l)) := by
  obtain ⟨e0, e1⟩ := idx9 t
  show ((cfg0.win 9).blk t).view.read (Elt Ideal) (V m c main_v12) (ix2 (0 : Fin 1) l) = _
  rw [View.read_apply, V_main_v12 m c]
  have e : ((cfg0.win 9).blk t).view.emb (ix2 (0 : Fin 1) l) = (ix2 (0 : Fin 1) (unit t l) : S1x4096.Idx) := by
    funext a; apply Fin.ext
    match a with
    | ⟨0, _⟩ => show win0_9.index t (0 : Fin 2) * 1 + 1 * 0 = 0; rw [e0]
    | ⟨1, _⟩ => show win0_9.index t (1 : Fin 2) * 256 + 1 * l.val = 256 * (t.val % 16) + l.val; rw [e1]; omega
  rw [e]
  exact shapeCast_a_1a_apply _ shapeCasts_S4096_S1x4096 (0 : Fin 1) (unit t l)

theorem blk10 (c : Dev nD) (t : Fin cfg0.N) (l : Fin 256) :
    (iblk m c 10 t : Vec Ideal S1x256 .f32) (ix2 (0 : Fin 1) l) = m ((c : Thread nD τ).loc main_arg10) (ix1 (unit t l)) := by
  obtain ⟨e0, e1⟩ := idx10 t
  show ((cfg0.win 10).blk t).view.read (Elt Ideal) (V m c main_v13) (ix2 (0 : Fin 1) l) = _
  rw [View.read_apply, V_main_v13 m c]
  have e : ((cfg0.win 10).blk t).view.emb (ix2 (0 : Fin 1) l) = (ix2 (0 : Fin 1) (unit t l) : S1x4096.Idx) := by
    funext a; apply Fin.ext
    match a with
    | ⟨0, _⟩ => show win0_10.index t (0 : Fin 2) * 1 + 1 * 0 = 0; rw [e0]
    | ⟨1, _⟩ => show win0_10.index t (1 : Fin 2) * 256 + 1 * l.val = 256 * (t.val % 16) + l.val; rw [e1]; omega
  rw [e]
  exact shapeCast_a_1a_apply _ shapeCasts_S4096_S1x4096 (0 : Fin 1) (unit t l)

theorem blk11 (c : Dev nD) (t : Fin cfg0.N) (q : Fin 256) (k : Fin 4096) :
    (iblk m c 11 t : Vec Ideal S256x4096 .bf16) (ix2 q k) = m ((c : Thread nD τ).loc main_arg11) (ix2 (unit t q) k) := by
  obtain ⟨e0, e1⟩ := idx11 t
  show ((cfg0.win 11).blk t).view.read (Elt Ideal) (V m c main_v6) (ix2 q k) = _
  rw [View.read_apply, V_main_v6 m c]
  have e : ((cfg0.win 11).blk t).view.emb (ix2 q k) = (ix2 (unit t q) k : S4096x4096.Idx) := by
    funext a; apply Fin.ext
    match a with
    | ⟨0, _⟩ => show win0_11.index t (0 : Fin 2) * 256 + 1 * q.val = 256 * (t.val % 16) + q.val; rw [e0]; omega
    | ⟨1, _⟩ => show win0_11.index t (1 : Fin 2) * 4096 + 1 * k.val = k.val; rw [e1]; omega
  rw [e]
  rfl

theorem blk12 (c : Dev nD) (t : Fin cfg0.N) (q : Fin 256) (k : Fin 4096) :
    (iblk m c 12 t : Vec Ideal S256x4096 .bf16) (ix2 q k) = m ((c : Thread nD τ).loc main_arg12) (ix2 (unit t q) k) := by
  obtain ⟨e0, e1⟩ := idx12 t
  show ((cfg0.win 12).blk t).view.read (Elt Ideal) (V m c main_v7) (ix2 q k) = _
  rw [View.read_apply, V_main_v7 m c]
  have e : ((cfg0.win 12).blk t).view.emb (ix2 q k) = (ix2 (unit t q) k : S4096x4096.Idx) := by
    funext a; apply Fin.ext
    match a with
    | ⟨0, _⟩ => show win0_12.index t (0 : Fin 2) * 256 + 1 * q.val = 256 * (t.val % 16) + q.val; rw [e0]; omega
    | ⟨1, _⟩ => show win0_12.index t (1 : Fin 2) * 4096 + 1 * k.val = k.val; rw [e1]; omega
  rw [e]
  rfl

theorem blk13 (c : Dev nD) (t : Fin cfg0.N) (q : Fin 256) (k : Fin 4096) :
    (iblk m c 13 t : Vec Ideal S256x4096 .bf16) (ix2 q k) = m ((c : Thread nD τ).loc main_arg13) (ix2 (unit t q) k) := by
  obtain ⟨e0, e1⟩ := idx13 t
  show ((cfg0.win 13).blk t).view.read (Elt Ideal) (V m c main_v8) (ix2 q k) = _
  rw [View.read_apply, V_main_v8 m c]
  have e : ((cfg0.win 13).blk t).view.emb (ix2 q k) = (ix2 (unit t q) k : S4096x4096.Idx) := by
    funext a; apply Fin.ext
    match a with
    | ⟨0, _⟩ => show win0_13.index t (0 : Fin 2) * 256 + 1 * q.val = 256 * (t.val % 16) + q.val; rw [e0]; omega
    | ⟨1, _⟩ => show win0_13.index t (1 : Fin 2) * 4096 + 1 * k.val = k.val; rw [e1]; omega
  rw [e]
  rfl

theorem blk14 (c : Dev nD) (t : Fin cfg0.N) (q : Fin 256) (k : Fin 4096) :
    (iblk m c 14 t : Vec Ideal S256x4096 .bf16) (ix2 q k) = m ((c : Thread nD τ).loc main_arg14) (ix2 (unit t q) k) := by
  obtain ⟨e0, e1⟩ := idx14 t
  show ((cfg0.win 14).blk t).view.read (Elt Ideal) (V m c main_v9) (ix2 q k) = _
  rw [View.read_apply, V_main_v9 m c]
  have e : ((cfg0.win 14).blk t).view.emb (ix2 q k) = (ix2 (unit t q) k : S4096x4096.Idx) := by
    funext a; apply Fin.ext
    match a with
    | ⟨0, _⟩ => show win0_14.index t (0 : Fin 2) * 256 + 1 * q.val = 256 * (t.val % 16) + q.val; rw [e0]; omega
    | ⟨1, _⟩ => show win0_14.index t (1 : Fin 2) * 4096 + 1 * k.val = k.val; rw [e1]; omega
  rw [e]
  rfl

theorem blk15 (c : Dev nD) (t : Fin cfg0.N) (l : Fin 256) :
    (iblk m c 15 t : Vec Ideal S1x256 .f32) (ix2 (0 : Fin 1) l) = m ((c : Thread nD τ).loc main_arg15) (ix2 (0 : Fin 1) (unit t l)) := by
  obtain ⟨e0, e1⟩ := idx15 t
  show ((cfg0.win 15).blk t).view.read (Elt Ideal) (V m c main_arg15) (ix2 (0 : Fin 1) l) = _
  rw [View.read_apply, V_main_arg15 m c]
  have e : ((cfg0.win 15).blk t).view.emb (ix2 (0 : Fin 1) l) = (ix2 (0 : Fin 1) (unit t l) : S1x4096.Idx) := by
    funext a; apply Fin.ext
    match a with
    | ⟨0, _⟩ => show win0_15.index t (0 : Fin 2) * 1 + 1 * 0 = 0; rw [e0]
    | ⟨1, _⟩ => show win0_15.index t (1 : Fin 2) * 256 + 1 * l.val = 256 * (t.val % 16) + l.val; rw [e1]; omega
  rw [e]
  rfl

theorem blk16 (c : Dev nD) (t : Fin cfg0.N) :
    (iblk m c 16 t : Vec Ideal S1x1 .f32) (ix2 (0 : Fin 1) (0 : Fin 1)) = m ((c : Thread nD τ).loc main_arg16) (ix1 (0 : Fin 1)) := by
  obtain ⟨e0, e1⟩ := idx16 t
  show ((cfg0.win 16).blk t).view.read (Elt Ideal) (V m c main_v14) (ix2 (0 : Fin 1) (0 : Fin 1)) = _
  rw [View.read_apply, V_main_v14 m c]
  have e : ((cfg0.win 16).blk t).view.emb (ix2 (0 : Fin 1) (0 : Fin 1)) = (ix2 (0 : Fin 1) (0 : Fin 1) : S1x1.Idx) := by
    funext a; apply Fin.ext
    match a with
    | ⟨0, _⟩ => show win0_16.index t (0 : Fin 2) * 1 + 1 * 0 = 0; rw [e0]
    | ⟨1, _⟩ => show win0_16.index t (1 : Fin 2) * 1 + 1 * 0 = 0; rw [e1]
  rw [e]
  exact shapeCast_a_1a_apply _ shapeCasts_S1_S1x1 (0 : Fin 1) (0 : Fin 1)

end Cert.KernelIdeal.Blocks

end
-- ==== Proof.Carried.lean ====
/-
  The column the kernel carries across the hidden tiles of one batch tile.

  At the first hidden tile the column is reset to zero and the tile's column of sums is added; every later tile adds its
  own. So after hidden tile h of a batch tile the column holds, for item q, zero plus the sum over tiles 0 … h of the
  contributions of the tile's 256 units to q's read-out. This is a running total in an additive commutative monoid: the
  order of the additions is kept, and nothing about finiteness is used.
-/
import proofs.«128934_j49254684950852_2_alg».proof.Proof.Gen.KernelIdeal.Value
import proofs.«128934_j49254684950852_2_alg».proof.Proof.CasePieces
import proofs.«128934_j49254684950852_2_alg».proof.Proof.Blocks
import proofs.«128934_j49254684950852_2_alg».proof.Proof.CellStep
import Idealize.ShloMosaic.Lib.Pipeline.Value

noncomputable section

namespace Cert.KernelIdeal.Carried

open Cert.KernelIdeal Cert.KernelIdeal.Gen Cert.KernelIdeal.Value Cert.KernelIdeal.TileStep Cert.KernelIdeal.CasePieces
open Cert.KernelIdeal.Blocks Cert.CellStep
open Idealize.ShloMosaic Idealize.ShloMosaic.TcCoe Idealize.SL.Sem Idealize.ShloMosaic.ValueIdx

variable (m : (ℓ : Loc nD τ sig) → Buf (Elt Ideal) ℓ)

/-- What hidden unit `j` contributes to the read-out of item `b`, from the arrays core `c` was launched with. -/
def term (c : Dev nD) (b j : Fin 4096) : EReal :=
  unitTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) b j

/-- One grid point at item `q` of its batch tile: what the column held for `q`, plus the contributions of the 256
    units of the point's hidden tile. -/
theorem point_apply (c : Dev nD) (t : Fin cfg0.N) (acc : Vec Ideal S512x1 .f32) (q : Fin 512) (z : Fin 1) :
    step (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) acc (ix2 q z)
      = acc (ix2 q z) + ∑ l : Fin 256, term m c (item t q) (unit t l) := by
  refine (step_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) acc q z).trans ?_
  refine congrArg (fun s => acc (ix2 q z) + s) (Finset.sum_congr rfl fun l _ => ?_)
  simp only [blk0 m c t, blk1 m c t, blk2 m c t, blk3 m c t, blk4 m c t, blk5 m c t, blk6 m c t, blk7 m c t, blk8 m c t, blk9 m c t, blk10 m c t, blk11 m c t, blk12 m c t, blk13 m c t, blk14 m c t, blk15 m c t]
  rfl

/-- The column of sums point `n` adds, at row `i` of its batch tile. It is written for every natural number (the batch
    tile taken modulo 8) so that sums over consecutive points need no bound; only points of the grid are ever used. -/
def addend (c : Dev nD) (n : ℕ) (i : S512x1.Idx) : EReal :=
  ∑ l : Fin 256, term m c
    ⟨512 * ((n / 16) % 8) + (i 0).val, by have h : (i 0).val < 512 := (i 0).isLt; omega⟩
    ⟨256 * (n % 16) + l.val, by have := l.isLt; omega⟩

theorem addend_at (c : Dev nD) (t : Fin cfg0.N) (q : Fin 512) (z : Fin 1) :
    addend m c t.val (ix2 q z) = ∑ l : Fin 256, term m c (item t q) (unit t l) := by
  have ht : t.val < 128 := lt_of_lt_of_eq t.isLt N_0
  unfold addend
  refine Finset.sum_congr rfl fun l _ => ?_
  have e1 : (⟨512 * ((t.val / 16) % 8) + ((ix2 q z : S512x1.Idx) 0).val, by
      have h : ((ix2 q z : S512x1.Idx) 0).val < 512 := ((ix2 q z : S512x1.Idx) 0).isLt; omega⟩ : Fin 4096) = item t q :=
    Fin.ext (by show 512 * ((t.val / 16) % 8) + q.val = 512 * (t.val / 16) + q.val; omega)
  rw [e1]
  rfl

/-- At a reset point the column ends at zero plus the point's column of sums. -/
theorem reset_step (c : Dev nD) (n : ℕ) (hb : n < cfg0.N) (h0 : n % 16 = 0) (acc : Vec Ideal S512x1 .f32) (i : S512x1.Idx) :
    scAt0_0 m c n hb acc i = 0 + addend m c n i := by
  obtain ⟨q, z, rfl⟩ : ∃ (q : Fin 512) (z : Fin 1), i = ix2 q z := ⟨i 0, i 1, eq_ix2 i⟩
  rw [addend_at m c ⟨n, hb⟩ q z]
  have h1 : ¬ n % 16 = 15 := by omega
  unfold scAt0_0
  rw [dif_pos h0, dif_neg h1, carried_A]
  refine (point_apply m c ⟨n, hb⟩ (k0_pay3 (F := Ideal)) q z).trans ?_
  rw [pay3_apply]

/-- At every other point the column ends at what it held plus the point's column of sums. -/
theorem later_step (c : Dev nD) (n : ℕ) (hb : n < cfg0.N) (h0 : ¬ n % 16 = 0) (acc : Vec Ideal S512x1 .f32) (i : S512x1.Idx) :
    scAt0_0 m c n hb acc i = acc i + addend m c n i := by
  obtain ⟨q, z, rfl⟩ : ∃ (q : Fin 512) (z : Fin 1), i = ix2 q z := ⟨i 0, i 1, eq_ix2 i⟩
  rw [addend_at m c ⟨n, hb⟩ q z]
  unfold scAt0_0
  rw [dif_neg h0]
  by_cases h1 : n % 16 = 15
  · rw [dif_pos h1, carried_C]
    exact point_apply m c ⟨n, hb⟩ acc q z
  · rw [dif_neg h1, carried_B]
    exact point_apply m c ⟨n, hb⟩ acc q z

/-- The carried column after point `t`: zero plus the columns of sums of the points of `t`'s batch tile up to `t`. -/
theorem carried_eq (c : Dev nD) (t : Fin cfg0.N) (i : S512x1.Idx) :
    (outsAt0 m c t.val t.isLt).2 i
      = 0 + ∑ s ∈ Finset.range (t.val % 16 + 1), addend m c (16 * (t.val / 16) + s) i := by
  rw [soutsAt0_0_eq m c t]
  exact Pipeline.accAt_add_apply (ι := S512x1.Idx) (β := EReal) _ (scAt0_0 m c) (fun _ => 0) (addend m c)
    (16 * (t.val / 16)) 15
    (fun h i => reset_step m c _ h (by omega) _ i)
    (fun n h acc i h1 h2 => later_step m c n h (by omega) acc i)
    (t.val % 16) (by omega) _ i

end Cert.KernelIdeal.Carried

end
-- ==== Proof.LibBlockSum.lean ====
/-
  Regrouping a finite sum into consecutive blocks, and a running total as a finite sum.
  Everything here holds in any additive commutative monoid; the extended reals are one
  (their addition is commutative and associative with no finiteness side condition).
-/
import Idealize.ShloMosaic.PureOps.Ideal

open scoped BigOperators

namespace Cert.LibBlockSum

variable {M : Type*} [AddCommMonoid M]

/-- Position `k` of block `i`, for `n` blocks of `m` positions each, is a position below `n * m`. -/
theorem blockIdx_lt {n m i k : ℕ} (hi : i < n) (hk : k < m) : i * m + k < n * m := by
  calc i * m + k < i * m + m := by omega
    _ = (i + 1) * m := by ring
    _ ≤ n * m := Nat.mul_le_mul_right m hi

/-- A sum over `n * m` positions is the sum over the `n` blocks of the sum over the `m` positions
    of each block; position `k` of block `i` is `i * m + k`. -/
theorem sum_blocks_fin (n m : ℕ) (f : Fin (n * m) → M) :
    ∑ j : Fin (n * m), f j
      = ∑ i : Fin n, ∑ k : Fin m, f ⟨i.val * m + k.val, blockIdx_lt i.isLt k.isLt⟩ := by
  rw [← finProdFinEquiv.sum_comp, Fintype.sum_prod_type]
  refine Finset.sum_congr rfl fun i _ => Finset.sum_congr rfl fun k _ => ?_
  congr 1
  ext
  simp only [finProdFinEquiv_apply_val]
  ring

/-- The same regrouping with the block number running over the naturals below `n`. The block number
    is written `i % n`, which is `i` itself there, so that the position is in range for every `i`. -/
theorem sum_blocks_range (n m : ℕ) (hn : 0 < n) (f : Fin (n * m) → M) :
    ∑ j : Fin (n * m), f j
      = ∑ i ∈ Finset.range n, ∑ k : Fin m,
          f ⟨(i % n) * m + k.val, blockIdx_lt (Nat.mod_lt i hn) k.isLt⟩ := by
  rw [sum_blocks_fin n m f,
    ← Fin.sum_univ_eq_sum_range
      (fun i => ∑ k : Fin m, f ⟨(i % n) * m + k.val, blockIdx_lt (Nat.mod_lt i hn) k.isLt⟩) n]
  refine Finset.sum_congr rfl fun i _ => Finset.sum_congr rfl fun k _ => ?_
  congr 1
  ext
  simp only [Nat.mod_eq_of_lt i.isLt]

/-- 8192 positions as 32 blocks of 256, the block number a member of `Fin 32`. -/
theorem sum_blocks_fin32 (f : Fin 8192 → M) :
    ∑ j : Fin 8192, f j
      = ∑ i : Fin 32, ∑ k : Fin 256, f ⟨i.val * 256 + k.val, by omega⟩ :=
  sum_blocks_fin 32 256 f

/-- 8192 positions as 32 blocks of 256, the block number a natural below 32. -/
theorem sum_blocks (f : Fin 8192 → M) :
    ∑ j : Fin 8192, f j
      = ∑ i ∈ Finset.range 32, ∑ k : Fin 256, f ⟨(i % 32) * 256 + k.val, by omega⟩ :=
  sum_blocks_range 32 256 (by norm_num) f

/-- A running total that starts at the first term and adds the next term at every step is, after
    `n` steps, the sum of the first `n + 1` terms. -/
theorem fold_eq_sum (c acc : ℕ → M) (h0 : acc 0 = c 0)
    (hs : ∀ n, acc (n + 1) = acc n + c (n + 1)) (n : ℕ) :
    acc n = ∑ i ∈ Finset.range (n + 1), c i := by
  induction n with
  | zero => simp [h0]
  | succ n ih => rw [hs, ih, Finset.sum_range_succ _ (n + 1)]

end Cert.LibBlockSum
-- ==== Proof.KernelStep.lean ====
/-
  The kernel's result array.

  The output block of a batch tile is written once, at the tile's last hidden tile: the carried column, which by then
  holds for every item the contributions of all sixteen hidden tiles, plus the read-out bias. Sixteen tiles of 256
  units are the 4096 units, and a sum over all units is the sum over the tiles of each tile's sum, so the block holds
  the cell step's read-out of the tile's items. The eight batch tiles' blocks cover the result array.
-/
import proofs.«128934_j49254684950852_2_alg».proof.Proof.Carried
import proofs.«128934_j49254684950852_2_alg».proof.Proof.LibBlockSum

noncomputable section

namespace Cert.KernelIdeal.KernelStep

open Cert.KernelIdeal Cert.KernelIdeal.Gen Cert.KernelIdeal.Value Cert.KernelIdeal.TileStep Cert.KernelIdeal.CasePieces
open Cert.KernelIdeal.Blocks Cert.KernelIdeal.Carried Cert.CellStep
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The cell step's read-out of the arrays core `c` was launched with. -/
abbrev result (c : Dev nD) : Buf (Elt Ideal) ((c : Thread nD τ).loc main_v15) :=
  readout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- A sum over the 4096 hidden units, taken as sixteen tiles of 256. -/
theorem sum_units (f : Fin 4096 → EReal) :
    ∑ j : Fin 4096, f j
      = ∑ s ∈ Finset.range 16, ∑ l : Fin 256,
          f ⟨(s % 16) * 256 + l.val, by have := l.isLt; have := Nat.mod_lt s (show 0 < 16 by norm_num); omega⟩ :=
  Cert.LibBlockSum.sum_blocks_range 16 256 (by norm_num) f

/-- After the last hidden tile of a batch tile the carried column holds, for each item, the contributions of all units. -/
theorem tile_total (c : Dev nD) (t : Fin cfg0.N) (h1 : t.val % 16 = 15) (q : Fin 512) (z : Fin 1) :
    (outsAt0 m c t.val t.isLt).2 (ix2 q z) = ∑ j : Fin 4096, term m c (item t q) j := by
  have ht : t.val < 128 := lt_of_lt_of_eq t.isLt N_0
  have e16 : t.val % 16 + 1 = 16 := by omega
  rw [carried_eq m c t (ix2 q z), e16, zero_add, sum_units]
  refine Finset.sum_congr rfl fun s hs => ?_
  have hs' : s < 16 := Finset.mem_range.mp hs
  unfold addend
  refine Finset.sum_congr rfl fun l _ => ?_
  have hl : l.val < 256 := l.isLt
  refine congrArg₂ (term m c) (Fin.ext ?_) (Fin.ext ?_)
  · show 512 * (((16 * (t.val / 16) + s) / 16) % 8) + q.val = 512 * (t.val / 16) + q.val
    omega
  · show 256 * ((16 * (t.val / 16) + s) % 16) + l.val = (s % 16) * 256 + l.val
    omega

/-- What a flushing point writes back is its block of the read-out. -/
theorem flushed_eq (c : Dev nD) (t : Fin cfg0.N) (hf : (cfg0.win 17).flush t = true) :
    (dats m 0 c).flushed 17 t = ((cfg0.win 17).blk t).view.read (Elt Ideal) (result m c) := by
  have h1 : t.val % 16 = 15 := (flush0_17 t).mp hf
  have h0 : ¬ t.val % 16 = 0 := by omega
  obtain ⟨e0, e1⟩ := idx17 t
  have hs := congrArg Prod.snd (outsAt0_C m c t h0 h1)
  dsimp only at hs
  rw [carried_C] at hs
  rw [flushed17_C m c t h0 h1, written_C, ← hs]
  funext y
  obtain ⟨q, z, rfl⟩ : ∃ (q : Fin 512) (z : Fin 1), y = ix2 q z := ⟨y 0, y 1, eq_ix2 y⟩
  rw [View.read_apply]
  show k0_pay2 (outsAt0 m c t.val t.isLt).2 (iblk m c 16 t) (ix2 q z) = _
  rw [pay2_apply, tile_total m c t h1 q z, blk16 m c t]
  have e : ((cfg0.win 17).blk t).view.emb (ix2 q z) = (ix2 (item t q) z : S4096x1.Idx) := by
    funext a; apply Fin.ext
    match a with
    | ⟨0, _⟩ => show win0_17.index t (0 : Fin 2) * 512 + 1 * q.val = 512 * (t.val / 16) + q.val; rw [e0]; omega
    | ⟨1, _⟩ => show win0_17.index t (1 : Fin 2) * 1 + 1 * z.val = z.val; rw [e1]; omega
  rw [e]
  rfl

/-- An index of the result array is in point `t`'s block iff each coordinate is in the block's range on its axis. -/
theorem mem_blk (t : Fin cfg0.N) (i : S4096x1.Idx) :
    i ∈ ((cfg0.win 17).blk t).view.set
      ↔ ∀ a : Fin 2, win0_17.index t a * S512x1.size a ≤ (i a).val ∧ (i a).val < win0_17.index t a * S512x1.size a + S512x1.size a := by
  show i ∈ ((View.whole main_v15).slice (win0_17.rect t)).set ↔ _
  rw [View.set_slice_whole, Rect.mem_set_unit]
  exact Iff.rfl

/-- Every item is in the block of the last point of its batch tile, and that point writes its block back. -/
theorem cover (i : S4096x1.Idx) :
    ∃ t : Fin cfg0.N, (cfg0.win 17).flush t = true ∧ i ∈ ((cfg0.win 17).blk t).view.set := by
  have hi0 : (i 0).val < 4096 := (i 0).isLt
  have hi1 : (i 1).val < 1 := (i 1).isLt
  have hN : cfg0.N = 128 := N_0
  obtain ⟨t, ht⟩ : ∃ t : Fin cfg0.N, t.val = 16 * ((i 0).val / 512) + 15 := ⟨⟨16 * ((i 0).val / 512) + 15, by rw [hN]; omega⟩, rfl⟩
  obtain ⟨e0, e1⟩ := idx17 t
  refine ⟨t, (flush0_17 t).mpr (by omega), ?_⟩
  rw [mem_blk]
  intro a
  match a with
  | ⟨0, _⟩ =>
    show win0_17.index t (0 : Fin 2) * 512 ≤ (i 0).val ∧ (i 0).val < win0_17.index t (0 : Fin 2) * 512 + 512
    rw [e0, ht]; omega
  | ⟨1, _⟩ =>
    show win0_17.index t (1 : Fin 2) * 1 ≤ (i 1).val ∧ (i 1).val < win0_17.index t (1 : Fin 2) * 1 + 1
    rw [e1]; omega

/-- So the result array ends holding the read-out. -/
theorem final (c : Dev nD) : (dats m 0 c).arrAt 17 cfg0.N = result m c :=
  (dats m 0 c).arrAt_eq_of_cover 17 (result m c) (fun t hf => flushed_eq m c t hf) cover

/-- The kernel's run: the result array at the read-out of the arguments, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final m c), (h c).2⟩) (Cert.KernelIdeal.Value.run_blocks m ρ)

end Cert.KernelIdeal.KernelStep

end
-- ==== Proof.RefStep.lean ====
/-
  The reference program computes the cell step of CellStep.lean, read one operation at a time.

  Each gate is a product of the items with the transposed input weights, plus the bias laid along every item, plus a
  product of the previous hidden rows with the transposed recurrent weights: at item `b` and unit `j` the transposes
  make both products run over row `j` of the weights, which is the gate's pre-activation. The logistic function is
  spelled out as 1 / (1 + exp(−p)) with the constant one; that expression is the logistic function on the extended
  reals. The read-out is a product with the transposed read-out row, plus the bias laid along every item.
-/
import proofs.«128934_j49254684950852_2_alg».proof.Proof.Gen.ReferenceIdeal.Read
import proofs.«128934_j49254684950852_2_alg».proof.Proof.CellStep

noncomputable section

namespace Cert.ReferenceIdeal.RefStep

open Cert.ReferenceIdeal Cert.ReferenceIdeal.Read Idealize.ShloMosaic Idealize.ShloMosaic.ValueIdx Cert.CellStep

/-- The single-precision word of `1.0` denotes the number one. -/
theorem one_f32 : Ideal.ofBits .f32 0x3F800000#32 = (1 : EReal) := by
  simp [Ideal.ofBits, Ideal.ieee, -EReal.coe_mul]; norm_num

/-- The input gate before its nonlinearity, at item `b` and unit `j`, is the gate's pre-activation. -/
theorem pre_i (x0 : (⟨S4096x1024, .f32⟩ : BufTy).Contents (Elt Ideal)) (x1 : (⟨S4096x4096, .f32⟩ : BufTy).Contents (Elt Ideal)) (x3 : (⟨S4096x1024, .f32⟩ : BufTy).Contents (Elt Ideal)) (x7 : (⟨S4096, .f32⟩ : BufTy).Contents (Elt Ideal)) (x11 : (⟨S4096x4096, .f32⟩ : BufTy).Contents (Elt Ideal)) (b j : Fin 4096) :
    val_main_v7 (F := Ideal) x0 x1 x3 x7 x11 (ix2 b j) = gatePre (fun k => x0 (ix2 b k)) (fun k => x1 (ix2 b k)) (fun k => x3 (ix2 j k)) (x7 (ix1 j)) (fun k => x11 (ix2 j k)) := by
  rw [val_main_v7_apply, val_main_v4_apply, val_main_v1_apply, val_main_v3_apply, val_main_v2_apply, val_main_v6_apply]
  have e1 : ∀ k : Fin 1024, lidx_main_v1 (ix2 b j) k = ix2 b k := fun k => funext fun a => Fin.ext (by match a with | ⟨0, _⟩ => rfl | ⟨1, _⟩ => rfl)
  have e2 : ∀ k : Fin 1024, idx_main_v0 (ridx_main_v1 (ix2 b j) k) = ix2 j k := fun k => funext fun a => Fin.ext (by match a with | ⟨0, _⟩ => rfl | ⟨1, _⟩ => rfl)
  have e3 : idx_main_v2 (idx_main_v3 (ix2 b j)) = ix1 j := funext fun a => Fin.ext (by match a with | ⟨0, _⟩ => rfl)
  have e4 : ∀ k : Fin 4096, lidx_main_v6 (ix2 b j) k = ix2 b k := fun k => funext fun a => Fin.ext (by match a with | ⟨0, _⟩ => rfl | ⟨1, _⟩ => rfl)
  have e5 : ∀ k : Fin 4096, idx_main_v5 (ridx_main_v6 (ix2 b j) k) = ix2 j k := fun k => funext fun a => Fin.ext (by match a with | ⟨0, _⟩ => rfl | ⟨1, _⟩ => rfl)
  simp only [val_main_v0_apply, val_main_v5_apply, e1, e2, e3, e4, e5]
  rfl

/-- The input gate, at item `b` and unit `j`, is the logistic function of its pre-activation. -/
theorem gate_i (x0 : (⟨S4096x1024, .f32⟩ : BufTy).Contents (Elt Ideal)) (x1 : (⟨S4096x4096, .f32⟩ : BufTy).Contents (Elt Ideal)) (x3 : (⟨S4096x1024, .f32⟩ : BufTy).Contents (Elt Ideal)) (x7 : (⟨S4096, .f32⟩ : BufTy).Contents (Elt Ideal)) (x11 : (⟨S4096x4096, .f32⟩ : BufTy).Contents (Elt Ideal)) (b j : Fin 4096) :
    val_main_v13 (F := Ideal) x0 x1 x3 x7 x11 (ix2 b j) = Ideal.logistic (gatePre (fun k => x0 (ix2 b k)) (fun k => x1 (ix2 b k)) (fun k => x3 (ix2 j k)) (x7 (ix1 j)) (fun k => x11 (ix2 j k))) := by
  rw [val_main_v13_apply, val_main_v12_apply, val_main_cst_0_apply, val_main_v11_apply, val_main_v10_apply,
    val_main_cst_apply, val_main_v9_apply, val_main_v8_apply, pre_i]
  simp only [Ideal.ofBits_def, one_f32]
  rfl

/-- The forget gate before its nonlinearity, at item `b` and unit `j`, is the gate's pre-activation. -/
theorem pre_f (x0 : (⟨S4096x1024, .f32⟩ : BufTy).Contents (Elt Ideal)) (x1 : (⟨S4096x4096, .f32⟩ : BufTy).Contents (Elt Ideal)) (x4 : (⟨S4096x1024, .f32⟩ : BufTy).Contents (Elt Ideal)) (x8 : (⟨S4096, .f32⟩ : BufTy).Contents (Elt Ideal)) (x12 : (⟨S4096x4096, .f32⟩ : BufTy).Contents (Elt Ideal)) (b j : Fin 4096) :
    val_main_v21 (F := Ideal) x0 x1 x4 x8 x12 (ix2 b j) = gatePre (fun k => x0 (ix2 b k)) (fun k => x1 (ix2 b k)) (fun k => x4 (ix2 j k)) (x8 (ix1 j)) (fun k => x12 (ix2 j k)) := by
  rw [val_main_v21_apply, val_main_v18_apply, val_main_v15_apply, val_main_v17_apply, val_main_v16_apply, val_main_v20_apply]
  have e1 : ∀ k : Fin 1024, lidx_main_v15 (ix2 b j) k = ix2 b k := fun k => funext fun a => Fin.ext (by match a with | ⟨0, _⟩ => rfl | ⟨1, _⟩ => rfl)
  have e2 : ∀ k : Fin 1024, idx_main_v14 (ridx_main_v15 (ix2 b j) k) = ix2 j k := fun k => funext fun a => Fin.ext (by match a with | ⟨0, _⟩ => rfl | ⟨1, _⟩ => rfl)
  have e3 : idx_main_v16 (idx_main_v17 (ix2 b j)) = ix1 j := funext fun a => Fin.ext (by match a with | ⟨0, _⟩ => rfl)
  have e4 : ∀ k : Fin 4096, lidx_main_v20 (ix2 b j) k = ix2 b k := fun k => funext fun a => Fin.ext (by match a with | ⟨0, _⟩ => rfl | ⟨1, _⟩ => rfl)
  have e5 : ∀ k : Fin 4096, idx_main_v19 (ridx_main_v20 (ix2 b j) k) = ix2 j k := fun k => funext fun a => Fin.ext (by match a with | ⟨0, _⟩ => rfl | ⟨1, _⟩ => rfl)
  simp only [val_main_v14_apply, val_main_v19_apply, e1, e2, e3, e4, e5]
  rfl

/-- The forget gate, at item `b` and unit `j`, is the logistic function of its pre-activation. -/
theorem gate_f (x0 : (⟨S4096x1024, .f32⟩ : BufTy).Contents (Elt Ideal)) (x1 : (⟨S4096x4096, .f32⟩ : BufTy).Contents (Elt Ideal)) (x4 : (⟨S4096x1024, .f32⟩ : BufTy).Contents (Elt Ideal)) (x8 : (⟨S4096, .f32⟩ : BufTy).Contents (Elt Ideal)) (x12 : (⟨S4096x4096, .f32⟩ : BufTy).Contents (Elt Ideal)) (b j : Fin 4096) :
    val_main_v27 (F := Ideal) x0 x1 x4 x8 x12 (ix2 b j) = Ideal.logistic (gatePre (fun k => x0 (ix2 b k)) (fun k => x1 (ix2 b k)) (fun k => x4 (ix2 j k)) (x8 (ix1 j)) (fun k => x12 (ix2 j k))) := by
  rw [val_main_v27_apply, val_main_v26_apply, val_main_cst_2_apply, val_main_v25_apply, val_main_v24_apply,
    val_main_cst_1_apply, val_main_v23_apply, val_main_v22_apply, pre_f]
  simp only [Ideal.ofBits_def, one_f32]
  rfl

/-- The output gate before its nonlinearity, at item `b` and unit `j`, is the gate's pre-activation. -/
theorem pre_o (x0 : (⟨S4096x1024, .f32⟩ : BufTy).Contents (Elt Ideal)) (x1 : (⟨S4096x4096, .f32⟩ : BufTy).Contents (Elt Ideal)) (x5 : (⟨S4096x1024, .f32⟩ : BufTy).Contents (Elt Ideal)) (x9 : (⟨S4096, .f32⟩ : BufTy).Contents (Elt Ideal)) (x13 : (⟨S4096x4096, .f32⟩ : BufTy).Contents (Elt Ideal)) (b j : Fin 4096) :
    val_main_v35 (F := Ideal) x0 x1 x5 x9 x13 (ix2 b j) = gatePre (fun k => x0 (ix2 b k)) (fun k => x1 (ix2 b k)) (fun k => x5 (ix2 j k)) (x9 (ix1 j)) (fun k => x13 (ix2 j k)) := by
  rw [val_main_v35_apply, val_main_v32_apply, val_main_v29_apply, val_main_v31_apply, val_main_v30_apply, val_main_v34_apply]
  have e1 : ∀ k : Fin 1024, lidx_main_v29 (ix2 b j) k = ix2 b k := fun k => funext fun a => Fin.ext (by match a with | ⟨0, _⟩ => rfl | ⟨1, _⟩ => rfl)
  have e2 : ∀ k : Fin 1024, idx_main_v28 (ridx_main_v29 (ix2 b j) k) = ix2 j k := fun k => funext fun a => Fin.ext (by match a with | ⟨0, _⟩ => rfl | ⟨1, _⟩ => rfl)
  have e3 : idx_main_v30 (idx_main_v31 (ix2 b j)) = ix1 j := funext fun a => Fin.ext (by match a with | ⟨0, _⟩ => rfl)
  have e4 : ∀ k : Fin 4096, lidx_main_v34 (ix2 b j) k = ix2 b k := fun k => funext fun a => Fin.ext (by match a with | ⟨0, _⟩ => rfl | ⟨1, _⟩ => rfl)
  have e5 : ∀ k : Fin 4096, idx_main_v33 (ridx_main_v34 (ix2 b j) k) = ix2 j k := fun k => funext fun a => Fin.ext (by match a with | ⟨0, _⟩ => rfl | ⟨1, _⟩ => rfl)
  simp only [val_main_v28_apply, val_main_v33_apply, e1, e2, e3, e4, e5]
  rfl

/-- The output gate, at item `b` and unit `j`, is the logistic function of its pre-activation. -/
theorem gate_o (x0 : (⟨S4096x1024, .f32⟩ : BufTy).Contents (Elt Ideal)) (x1 : (⟨S4096x4096, .f32⟩ : BufTy).Contents (Elt Ideal)) (x5 : (⟨S4096x1024, .f32⟩ : BufTy).Contents (Elt Ideal)) (x9 : (⟨S4096, .f32⟩ : BufTy).Contents (Elt Ideal)) (x13 : (⟨S4096x4096, .f32⟩ : BufTy).Contents (Elt Ideal)) (b j : Fin 4096) :
    val_main_v41 (F := Ideal) x0 x1 x5 x9 x13 (ix2 b j) = Ideal.logistic (gatePre (fun k => x0 (ix2 b k)) (fun k => x1 (ix2 b k)) (fun k => x5 (ix2 j k)) (x9 (ix1 j)) (fun k => x13 (ix2 j k))) := by
  rw [val_main_v41_apply, val_main_v40_apply, val_main_cst_4_apply, val_main_v39_apply, val_main_v38_apply,
    val_main_cst_3_apply, val_main_v37_apply, val_main_v36_apply, pre_o]
  simp only [Ideal.ofBits_def, one_f32]
  rfl

/-- The candidate gate before its nonlinearity, at item `b` and unit `j`, is the gate's pre-activation. -/
theorem pre_c (x0 : (⟨S4096x1024, .f32⟩ : BufTy).Contents (Elt Ideal)) (x1 : (⟨S4096x4096, .f32⟩ : BufTy).Contents (Elt Ideal)) (x6 : (⟨S4096x1024, .f32⟩ : BufTy).Contents (Elt Ideal)) (x10 : (⟨S4096, .f32⟩ : BufTy).Contents (Elt Ideal)) (x14 : (⟨S4096x4096, .f32⟩ : BufTy).Contents (Elt Ideal)) (b j : Fin 4096) :
    val_main_v49 (F := Ideal) x0 x1 x6 x10 x14 (ix2 b j) = gatePre (fun k => x0 (ix2 b k)) (fun k => x1 (ix2 b k)) (fun k => x6 (ix2 j k)) (x10 (ix1 j)) (fun k => x14 (ix2 j k)) := by
  rw [val_main_v49_apply, val_main_v46_apply, val_main_v43_apply, val_main_v45_apply, val_main_v44_apply, val_main_v48_apply]
  have e1 : ∀ k : Fin 1024, lidx_main_v43 (ix2 b j) k = ix2 b k := fun k => funext fun a => Fin.ext (by match a with | ⟨0, _⟩ => rfl | ⟨1, _⟩ => rfl)
  have e2 : ∀ k : Fin 1024, idx_main_v42 (ridx_main_v43 (ix2 b j) k) = ix2 j k := fun k => funext fun a => Fin.ext (by match a with | ⟨0, _⟩ => rfl | ⟨1, _⟩ => rfl)
  have e3 : idx_main_v44 (idx_main_v45 (ix2 b j)) = ix1 j := funext fun a => Fin.ext (by match a with | ⟨0, _⟩ => rfl)
  have e4 : ∀ k : Fin 4096, lidx_main_v48 (ix2 b j) k = ix2 b k := fun k => funext fun a => Fin.ext (by match a with | ⟨0, _⟩ => rfl | ⟨1, _⟩ => rfl)
  have e5 : ∀ k : Fin 4096, idx_main_v47 (ridx_main_v48 (ix2 b j) k) = ix2 j k := fun k => funext fun a => Fin.ext (by match a with | ⟨0, _⟩ => rfl | ⟨1, _⟩ => rfl)
  simp only [val_main_v42_apply, val_main_v47_apply, e1, e2, e3, e4, e5]
  rfl

/-- The new hidden value the reference computes at item `b` and unit `j`. -/
theorem hidden_ref (x0 : (⟨S4096x1024, .f32⟩ : BufTy).Contents (Elt Ideal)) (x1 x2 : (⟨S4096x4096, .f32⟩ : BufTy).Contents (Elt Ideal)) (x3 x4 x5 x6 : (⟨S4096x1024, .f32⟩ : BufTy).Contents (Elt Ideal)) (x7 x8 x9 x10 : (⟨S4096, .f32⟩ : BufTy).Contents (Elt Ideal)) (x11 x12 x13 x14 : (⟨S4096x4096, .f32⟩ : BufTy).Contents (Elt Ideal)) (b j : Fin 4096) :
    val_main_v55 (F := Ideal) x0 x1 x2 x3 x4 x5 x6 x7 x8 x9 x10 x11 x12 x13 x14 (ix2 b j)
      = hidden (gatePre (fun k => x0 (ix2 b k)) (fun k => x1 (ix2 b k)) (fun k => x3 (ix2 j k)) (x7 (ix1 j)) (fun k => x11 (ix2 j k)))
          (gatePre (fun k => x0 (ix2 b k)) (fun k => x1 (ix2 b k)) (fun k => x4 (ix2 j k)) (x8 (ix1 j)) (fun k => x12 (ix2 j k)))
          (gatePre (fun k => x0 (ix2 b k)) (fun k => x1 (ix2 b k)) (fun k => x5 (ix2 j k)) (x9 (ix1 j)) (fun k => x13 (ix2 j k)))
          (gatePre (fun k => x0 (ix2 b k)) (fun k => x1 (ix2 b k)) (fun k => x6 (ix2 j k)) (x10 (ix1 j)) (fun k => x14 (ix2 j k)))
          (x2 (ix2 b j)) := by
  rw [val_main_v55_apply, gate_o, val_main_v54_apply, val_main_v53_apply, val_main_v51_apply, gate_f, val_main_v52_apply, gate_i,
    val_main_v50_apply, pre_c]
  rfl

/-- The reference's result is the cell step's read-out of the argument arrays. -/
theorem result_eq (x0 : (⟨S4096x1024, .f32⟩ : BufTy).Contents (Elt Ideal)) (x1 x2 : (⟨S4096x4096, .f32⟩ : BufTy).Contents (Elt Ideal)) (x3 x4 x5 x6 : (⟨S4096x1024, .f32⟩ : BufTy).Contents (Elt Ideal)) (x7 x8 x9 x10 : (⟨S4096, .f32⟩ : BufTy).Contents (Elt Ideal)) (x11 x12 x13 x14 : (⟨S4096x4096, .f32⟩ : BufTy).Contents (Elt Ideal)) (x15 : (⟨S1x4096, .f32⟩ : BufTy).Contents (Elt Ideal)) (x16 : (⟨S1, .f32⟩ : BufTy).Contents (Elt Ideal)) :
    val_main_v60 (F := Ideal) x0 x1 x2 x3 x4 x5 x6 x7 x8 x9 x10 x11 x12 x13 x14 x15 x16 = readout x0 x1 x2 x3 x4 x5 x6 x7 x8 x9 x10 x11 x12 x13 x14 x15 x16 := by
  funext i
  obtain ⟨b, z, rfl⟩ : ∃ (b : Fin 4096) (z : Fin 1), i = ix2 b z := ⟨i 0, i 1, eq_ix2 i⟩
  rw [readout_apply, val_main_v60_apply, val_main_v57_apply, val_main_v59_apply, val_main_v58_apply]
  have hz : z.val = 0 := by omega
  have e1 : ∀ k : Fin 4096, lidx_main_v57 (ix2 b z) k = ix2 b k := fun k => funext fun a => Fin.ext (by match a with | ⟨0, _⟩ => rfl | ⟨1, _⟩ => rfl)
  have e2 : ∀ k : Fin 4096, idx_main_v56 (ridx_main_v57 (ix2 b z) k) = ix2 (0 : Fin 1) k := fun k =>
    funext fun a => Fin.ext (by match a with | ⟨0, _⟩ => exact hz | ⟨1, _⟩ => rfl)
  have e3 : idx_main_v58 (idx_main_v59 (ix2 b z)) = ix1 (0 : Fin 1) := funext fun a => Fin.ext (by match a with | ⟨0, _⟩ => rfl)
  simp only [val_main_v56_apply, e1, e2, e3, hidden_ref]
  rfl

end Cert.ReferenceIdeal.RefStep

end
-- ==== Proof.lean ====
/-
  One step of a gated recurrent cell with a one-number read-out: a tiled kernel against the plain formula.

  For item b and hidden unit j, each of the four gates has the pre-activation (Σₖ x(b,k)·Wx(j,k) + bx(j)) + Σₖ h(b,k)·Wh(j,k);
  with σ the logistic function the unit's new hidden value is σ(o)·tanh(σ(f)·c(b,j) + σ(i)·tanh(g)), and the result for
  item b is Σⱼ hidden(b,j)·wy(j) plus one bias (CellStep.lean).

  The reference computes exactly this with whole-array operations, the logistic function spelled 1 / (1 + exp(−p))
  (RefStep.lean). The kernel works on 8 batch tiles of 512 items and 16 hidden tiles of 256 units: at each tile pair it
  forms the pre-activations of the tile's items and units from rows of the arrays (TileStep.lean, Blocks.lean), adds each
  item's 256 contributions into a column it carries across the hidden tiles — reset to zero at the first one — and at
  the last hidden tile writes the column plus the bias to the batch tile's block of the result (CasePieces.lean,
  Carried.lean, KernelStep.lean). On the extended reals the two agree for every input: the changes of float format are
  the identity, the logistic function is its own expansion, and the only rearrangement is that a sum over 4096 units
  is taken as sixteen sums of 256 added in order from zero, which is associativity and commutativity of addition.
  The precondition is not used.
-/
import proofs.«128934_j49254684950852_2_alg».proof.Defs
import proofs.«128934_j49254684950852_2_alg».proof.Proof.Gen.Kernel
import proofs.«128934_j49254684950852_2_alg».proof.Proof.Gen.Kernel.Skeleton
import proofs.«128934_j49254684950852_2_alg».proof.Proof.Gen.Kernel.Launch
import proofs.«128934_j49254684950852_2_alg».proof.Proof.Gen.Kernel.Points
import proofs.«128934_j49254684950852_2_alg».proof.Proof.Gen.Kernel.Frame
import proofs.«128934_j49254684950852_2_alg».proof.Proof.Gen.KernelIdeal
import proofs.«128934_j49254684950852_2_alg».proof.Proof.Gen.KernelIdeal.Skeleton
import proofs.«128934_j49254684950852_2_alg».proof.Proof.Gen.KernelIdeal.Launch
import proofs.«128934_j49254684950852_2_alg».proof.Proof.Gen.KernelIdeal.Points
import proofs.«128934_j49254684950852_2_alg».proof.Proof.Gen.KernelIdeal.Frame
import proofs.«128934_j49254684950852_2_alg».proof.Proof.Gen.ReferenceIdeal
import proofs.«128934_j49254684950852_2_alg».proof.Proof.Gen.Pre_finite_inputs
import proofs.«128934_j49254684950852_2_alg».proof.Proof.Gen.KernelIdeal.Value
import proofs.«128934_j49254684950852_2_alg».proof.Proof.Gen.ReferenceIdeal.Run
import proofs.«128934_j49254684950852_2_alg».proof.Proof.Gen.ReferenceIdeal.Read
import proofs.«128934_j49254684950852_2_alg».proof.Proof.KernelStep
import proofs.«128934_j49254684950852_2_alg».proof.Proof.RefStep
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- Both programs end with the cell step's read-out of their arguments, and the arguments agree. -/
theorem algebraic : Cert.algebraic_KernelIdeal_ReferenceIdeal := by
  intro m ρ m' ρ' _ hagree
  refine ⟨fun c => Cert.KernelIdeal.KernelStep.result m c, Cert.KernelIdeal.KernelStep.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16⟩ := hagree c
  rw [Cert.ReferenceIdeal.Read.val_main_v60_eq, Cert.ReferenceIdeal.RefStep.result_eq,
    a0, a1, a2, a3, a4, a5, a6, a7, a8, a9, a10, a11, a12, a13, a14, a15, a16]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
